-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S16x2048x8192 : Shape := ⟨3, ![16, 2048, 8192]⟩
abbrev S16x4096x2048 : Shape := ⟨3, ![16, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x2048x8192 : S_.BroadcastsInDim S16x2048x8192 (![] : Fin 0 → Fin S16x2048x8192.rank)
  reducesTo_S16x2048x8192_S_d0_1_2 : S16x2048x8192.ReducesTo [0, 1, 2] S_
  bcast_S_S16x4096x2048 : S_.BroadcastsInDim S16x4096x2048 (![] : Fin 0 → Fin S16x4096x2048.rank)
  reducesTo_S16x4096x2048_S_d0_1_2 : S16x4096x2048.ReducesTo [0, 1, 2] S_

variable [Facts]

def fn {F : FTy → Type} [FloatOps F] (main_arg0 : FVec F S8192x2048 .f32) (main_arg1 : FVec F S16x2048x8192 .f32) (main_arg2 : FVec F S16x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16x2048x8192 .f32 := Host.absf main_arg1
  let main_cst_0 : FVec F S_ .f32 := constant S_ .f32 0x7F800000#32
  let main_v5 : FVec F S16x2048x8192 .f32 := broadcastInDim S16x2048x8192 ![] bcast_S_S16x2048x8192 main_cst_0
  let main_v6 : IVec S16x2048x8192 1 := cmpf .olt main_v4 main_v5
  let main_c_1 : IVec S_ 1 := constantI S_ 1 1#1
  let main_v7 : IVec S_ 1 := (fun x v => Host.reduce IntOp.andi x v reducesTo_S16x2048x8192_S_d0_1_2 h_S_) main_v6 main_c_1
  let main_v8 : IVec S_ 1 := andi main_v3 main_v7
  let main_v9 : FVec F S16x4096x2048 .f32 := Host.absf main_arg2
  let main_cst_2 : FVec F S_ .f32 := constant S_ .f32 0x7F800000#32
  let main_v10 : FVec F S16x4096x2048 .f32 := broadcastInDim S16x4096x2048 ![] bcast_S_S16x4096x2048 main_cst_2
  let main_v11 : IVec S16x4096x2048 1 := cmpf .olt main_v9 main_v10
  let main_c_3 : IVec S_ 1 := constantI S_ 1 1#1
  let main_v12 : IVec S_ 1 := (fun x v => Host.reduce IntOp.andi x v reducesTo_S16x4096x2048_S_d0_1_2 h_S_) main_v11 main_c_3
  let main_v13 : IVec S_ 1 := andi main_v8 main_v12
  main_v13
-- ==== Kernel.lean ====
abbrev S8192x2048 : Shape := ⟨2, ![8192, 2048]⟩
abbrev S16x2048x8192 : Shape := ⟨3, ![16, 2048, 8192]⟩
abbrev S16x4096x2048 : Shape := ⟨3, ![16, 4096, 2048]⟩
abbrev S16x512x2048 : Shape := ⟨3, ![16, 512, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S16x2048x8192, .f32⟩
  | .hbm, ⟨2, _⟩ => ⟨S16x4096x2048, .f32⟩
  | .hbm, ⟨3, _⟩ => ⟨S16x512x2048, .f32⟩
  | .hbm, ⟨4, _⟩ => ⟨S16x512x2048, .f32⟩
  | .hbm, ⟨5, _⟩ => ⟨S8192x2048, .f32⟩
  | .local _ .vmem, ⟨0, _⟩ => ⟨S1x512x2048, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x256x2048, .f32⟩
  | .local _ .vmem, ⟨6, _⟩ => ⟨S1x256x2048, .f32⟩
  | .local _ .vmem, ⟨7, _⟩ => ⟨S1x512x2048, .f32⟩
  | .local _ .vmem, ⟨8, _⟩ => ⟨S1x512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_21 : BitVec 32 := 0#32
  let v35 : BitVec 1 := Scalar.cmpi .ne v34 c0_i32_21
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x2048_S16x512x2048 : S8192x2048.ShapeCasts S16x512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S512x2048_S1x512x2048 : S512x2048.ShapeCasts S1x512x2048
  shapeCasts_S16x512x2048_S8192x2048 : S16x512x2048.ShapeCasts S8192x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x2048.size a
  hwx0_0 : ∀ i : grid0.Coords, EltTy.bits .f32 = 32 ∨ (Rect.block (s := S16x512x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x8192.size a
  hwx0_1 : ∀ i : grid0.Coords, EltTy.bits .f32 = 32 ∨ (Rect.block (s := S16x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x2048x8192.size a
  hwx0_2 : ∀ i : grid0.Coords, EltTy.bits .f32 = 32 ∨ (Rect.block (s := S16x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x4096x2048.size a
  hwx0_3 : ∀ i : grid0.Coords, EltTy.bits .f32 = 32 ∨ (Rect.block (s := S16x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x512x2048.size a
  hwx0_4 : ∀ i : grid0.Coords, EltTy.bits .f32 = 32 ∨ (Rect.block (s := S16x512x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S1x512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S16x2048x8192 : Shape := ⟨3, ![16, 2048, 8192]⟩
abbrev S16x4096x2048 : Shape := ⟨3, ![16, 4096, 2048]⟩
abbrev S16x512x2048 : Shape := ⟨3, ![16, 512, 2048]⟩
abbrev S16x512x8192 : Shape := ⟨3, ![16, 512, 8192]⟩
abbrev S16x512x4096 : Shape := ⟨3, ![16, 512, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048x8192, .f32⟩
  | .hbm, ⟨2, _⟩ => ⟨S16x4096x2048, .f32⟩
  | .hbm, ⟨3, _⟩ => ⟨S16x512x2048, .f32⟩
  | .hbm, ⟨4, _⟩ => ⟨S16x512x8192, .f32⟩
  | .hbm, ⟨5, _⟩ => ⟨S16x512x4096, .f32⟩
  | .hbm, ⟨6, _⟩ => ⟨S16x512x4096, .f32⟩
  | .hbm, ⟨7, _⟩ => ⟨S16x512x4096, .f32⟩
  | .hbm, ⟨8, _⟩ => ⟨S16x512x4096, .f32⟩
  | .hbm, ⟨9, _⟩ => ⟨S_, .f32⟩
  | .hbm, ⟨10, _⟩ => ⟨S16x512x4096, .f32⟩
  | .hbm, ⟨11, _⟩ => ⟨S16x512x4096, .f32⟩
  | .hbm, ⟨12, _⟩ => ⟨S_, .f32⟩
  | .hbm, ⟨13, _⟩ => ⟨S16x512x4096, .f32⟩
  | .hbm, ⟨14, _⟩ => ⟨S16x512x4096, .f32⟩
  | .hbm, ⟨15, _⟩ => ⟨S16x512x4096, .f32⟩
  | .hbm, ⟨16, _⟩ => ⟨S16x512x4096, .f32⟩
  | .hbm, ⟨17, _⟩ => ⟨S16x512x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S16x512x2048 : S8192x2048.ShapeCasts S16x512x2048
  slices_S16x512x8192_S16x512x4096_0_0_0 : S16x512x8192.Slices ![0, 0, 0] S16x512x4096
  slices_S16x512x8192_S16x512x4096_0_0_4096 : S16x512x8192.Slices ![0, 0, 4096] S16x512x4096
  bcast_S_S16x512x4096 : S_.BroadcastsInDim S16x512x4096 (![] : Fin 0 → Fin S16x512x4096.rank)
  shapeCasts_S16x512x2048_S8192x2048 : S16x512x2048.ShapeCasts S8192x2048
  dot_S16x512x2048_S16x2048x8192_S16x512x8192_2_1_1_2_0_0_wf : DotDims.WF S16x512x2048 S16x2048x8192 S16x512x8192 [2] [1] [1] [2] [0] [0]
  dot_S16x512x4096_S16x4096x2048_S16x512x2048_2_1_1_2_0_0_wf : DotDims.WF S16x512x4096 S16x4096x2048 S16x512x2048 [2] [1] [1] [2] [0] [0]

variable [Facts₀]

def dot_S16x512x2048_S16x2048x8192_S16x512x8192_2_1_1_2_0_0 : DotDims S16x512x2048 S16x2048x8192 S16x512x8192 where
  lhsContracting := [2]
  rhsContracting := [1]
  lhsNonContracting := [1]
  rhsNonContracting := [2]
  lhsBatch := [0]
  rhsBatch := [0]
  wf := dot_S16x512x2048_S16x2048x8192_S16x512x8192_2_1_1_2_0_0_wf
def dot_S16x512x4096_S16x4096x2048_S16x512x2048_2_1_1_2_0_0 : DotDims S16x512x4096 S16x4096x2048 S16x512x2048 where
  lhsContracting := [2]
  rhsContracting := [1]
  lhsNonContracting := [1]
  rhsNonContracting := [2]
  lhsBatch := [0]
  rhsBatch := [0]
  wf := dot_S16x512x4096_S16x4096x2048_S16x512x2048_2_1_1_2_0_0_wf

class Facts : Prop extends Facts₀ where

variable [Facts]
-- ==== Proof.K.Setup.lean ====
/-
  What the three runs of the kernel body share.

  The grid is 16 experts by 16 column tiles; point `t` is expert `t / 16`, tile `t % 16`. The body zeroes its
  scratch accumulator at tile 0, adds the tile's contribution at every tile, and copies the accumulator to the
  output block at tile 15. So a point is in one of three cases: the first tile (A), a middle tile (B), the last
  tile (C). Here: the arrays as the region finds them (the token array re-laid as [16, 512, 2048] by the one host
  operation before the region), each input window's block at a point and that the body finds exactly that block
  in the window's buffer (fetched at this point or left from the point before), the two branch conditions in
  closed form, where the output window is idle, and the region invariant with the scratch buffer named.
-/
import proofs.«132630_j37151467110421_1_alg».proof.Proof.Gen.Kernel.Launch
import proofs.«132630_j37151467110421_1_alg».proof.Proof.Gen.Kernel.Skeleton
import proofs.«132630_j37151467110421_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: after the one host operation before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds the window's block at every point, fetched there or left from the point before,
    for any proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds the window's block at every point, fetched there or left from the point before,
    for any proof data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds the window's block at every point, fetched there or left from the point before,
    for any proof data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds the window's block at every point, fetched there or left from the point before,
    for any proof data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first conditional (zero the accumulator): the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (copy the accumulator out): the tile coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging memrefs at a point, and the scratch -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S512x2048 .f32 := Memref.whole cc0_scratch0
/-- The views through which the output block's and the accumulator's contents are stated. -/
abbrev VO0_4 : View sig .tc .vmem S1x512x2048 .f32 := (Memref.whole cc0_stg4_0 : Memref sig .tc .vmem S1x512x2048 .f32).view
abbrev VS0_0 : View sig .tc .vmem S512x2048 .f32 := scM0_0.view

/-- The class's region invariant with the scratch accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a first tile (tile coordinate 0): it zeroes the accumulator, then adds the tile's contribution;
  the output block is not touched.
-/
import proofs.«132630_j37151467110421_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole staging memrefs: the four input buffers at their contents in and out,
    the accumulator ending with the pieces the stores wrote (last first) — found by running the body, each
    conditional decided by the case's hypotheses. -/
noncomputable def kernelRun0_A (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) :
    { LS0 : List (View.Piece (Elt F) S512x2048 .f32) //
      ∀ (xi4 : Vec F S1x512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_mlp_kernel i arg2 harg2 arg3 harg3 arg4 harg4 arg5 harg5 arg6 harg6 arg7 harg7) K } := by
  refine ⟨?_, fun xi4 E K => ?run⟩
  case run =>
    simp only [cc0__expert_mlp_kernel_eq_skeleton]; unfold cc0__expert_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The body at a middle tile (tile coordinate 1 … 14): it adds the tile's contribution to the accumulator the
  tile before left; the output block is not touched.
-/
import proofs.«132630_j37151467110421_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole staging memrefs: the four input buffers at their contents in and out,
    the accumulator ending with the pieces the stores wrote (last first) — found by running the body, each
    conditional decided by the case's hypotheses. -/
noncomputable def kernelRun0_B (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) :
    { LS0 : List (View.Piece (Elt F) S512x2048 .f32) //
      ∀ (xi4 : Vec F S1x512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_mlp_kernel i arg2 harg2 arg3 harg3 arg4 harg4 arg5 harg5 arg6 harg6 arg7 harg7) K } := by
  refine ⟨?_, fun xi4 E K => ?run⟩
  case run =>
    simp only [cc0__expert_mlp_kernel_eq_skeleton]; unfold cc0__expert_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The body at a last tile (tile coordinate 15): it adds the tile's contribution to the accumulator and copies
  the accumulator to the output block.
-/
import proofs.«132630_j37151467110421_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole staging memrefs: the four input buffers at their contents in and out,
    the accumulator ending with the pieces the stores wrote (last first) — found by running the body, each
    conditional decided by the case's hypotheses. -/
noncomputable def kernelRun0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) :
    Σ' (L4 : List (View.Piece (Elt F) S1x512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__expert_mlp_kernel i arg2 harg2 arg3 harg3 arg4 harg4 arg5 harg5 arg6 harg6 arg7 harg7) K } := by
  refine ⟨?_, ?_, fun E K => ?run⟩
  case run =>
    simp only [cc0__expert_mlp_kernel_eq_skeleton]; unfold cc0__expert_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.K.Body.lean ====
/-
  The proof data of the pipeline and the body obligation at every point.

  What the accumulator holds after each point is defined by recursion on the point: at a first tile what the
  first-tile run leaves, elsewhere what the middle- or last-tile run leaves over the contents of the point before.
  The region invariant carries the accumulator at exactly those contents from one point to the next. The output
  window's buffer is written only at a last tile, where it holds the accumulator's copy; elsewhere it is idle and
  handed back untouched. The two windows on the gate/up weight array each hold half of that array.
-/
import proofs.«132630_j37151467110421_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) (y : S512x2048.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S512x2048.size (by sl_kernel_rfl) y

/-- What a first tile leaves in the accumulator. -/
def sout0_A (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) : Vec F S512x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

theorem scover0_B (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) (y : S512x2048.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S512x2048.size (by sl_kernel_rfl) y

/-- What a middle tile leaves in the accumulator. -/
def sout0_B (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

theorem cover0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) (y : S1x512x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x512x2048.size (by sl_kernel_rfl) y

/-- What a last tile leaves in the output block. -/
def out0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) : Vec F S1x512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x2048.size (by sl_kernel_rfl) y

/-- What a last tile leaves in the accumulator. -/
def sout0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- The output block's buffer where the body does not store into it: contents nothing consults. -/
def idleOut : Vec F S1x512x2048 .f32 := VO0_4.read (Elt F) VO0_4.junk

/-! ## What the output block and the accumulator hold after each point -/

theorem mod_facts {n : ℕ} (h0 : n % 16 = 0) : ¬ n % 16 = 15 := by omega

/-- After the body at position `n`: the output block's buffer (meaningful at a last tile only) and the accumulator. -/
def outsAt0 (c : Dev nD) : (n : ℕ) → n < cfg0.N → Vec F S1x512x2048 .f32 × Vec F S512x2048 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => mod_facts h0 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first tile. -/
theorem outsAt0_A (c : Dev nD) (t : Fin cfg0.N) (h0 : t.val % 16 = 0) :
    outsAt0 m c t.val t.isLt = (idleOut, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => mod_facts h0 ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle tile: over what the point before left. -/
theorem outsAt0_B (c : Dev nD) (t : Fin cfg0.N) (h0 : ¬t.val % 16 = 0) (h1 : ¬t.val % 16 = 15) :
    outsAt0 m c t.val t.isLt = (idleOut, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt0_C (c : Dev nD) (t : Fin cfg0.N) (h0 : ¬t.val % 16 = 0) (h1 : t.val % 16 = 15) :
    outsAt0 m c t.val t.isLt = (out0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the scratch at anything; afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data on core `c`: the arrays as the region finds them; after the body each input's buffer at its
    block, the output's at `outsAt0`; the invariant `PhiS`; nothing owed; the two windows on the gate/up
    weight array hold one half of it each, every other window its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the closed forms say which case the point is in;
    the case's run applies; the invariant hands the accumulator over at what the point before left (at anything
    at a first tile) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt (show cfg0.N = 256 from N_0)
  by_cases h0 : t.val % 16 = 0
  · have h1 : ¬t.val % 16 = 15 := mod_facts h0
    rw [Dat.leavesExact_idle (dats m 0 c) 4 t (idleAt0_4 t (fun h => h1 ((hcond0_1 t).mp h))) (noFlush0_4 t (fun h => h1 ((hcond0_1 t).mp h)))]
    rw [outsAt0_A m c t h0]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => mod_facts h0 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => mod_facts h0 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C sout0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region is handed at entry is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.K.Launch.lean ====
/-
  The launch: @main is one host operation (the token array re-laid as [16, 512, 2048]), the kernel region, and
  one host operation (the result re-laid as [8192, 2048]). Between them the core holds its unscoped buffers whole at
  a valuation, its generator register, and owes nothing. The region takes the five windows' arrays out of those
  buffers — the gate/up weight array, which two windows read, as two halves — and gives them back at the end, the
  result array at what the write-backs left. Read against the final state: the program's result is the re-laid
  result array, and the three argument arrays are as launched.
-/
import proofs.«132630_j37151467110421_1_alg».proof.Proof.K.Body
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states between the segments -/

/-- Core `c`'s buffers at launch. -/
abbrev Vl (c : Dev nD) : Valuation τ sig (Elt F) := fun b => m (c, b)

/-- What rides beside the buffers: the generator register, and that the core owes nothing. -/
abbrev R (c : Dev nD) : sProp 𝕄 :=
  iprop((∃ r, prngReg c r) ∗ ∃ W, owes (c : Thread nD τ) (0 : CellTallies nD τ sig Unit) W)

abbrev 𝒱₀ : Variants := Variants.none
abbrev L0 : GSem nD τ sig → Finset Unit := fun _ => ∅
abbrev lv0 : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The result array after the region: the entry contents with each expert's block overwritten at its last tile. -/
abbrev outAt (c : Dev nD) : Buf (Elt F) ((c : Thread nD τ).loc main_v1) := (dats m 0 c).arrAt 4 cfg0.N

/-- The buffers when the region is left: as it found them, but for the result array. -/
abbrev Vx (c : Dev nD) : Valuation τ sig (Elt F) := (StableHlo.nullary (τ := τ) main_v1 (outAt m c)).result (V0 m c)

theorem Vx_out (c : Dev nD) : Vx m c (Proc.devRef .tc main_v1) = outAt m c := by
  unfold Vx
  rw [(StableHlo.nullary (τ := τ) main_v1 (outAt m c)).result_of_mem _ (by rw [StableHlo.nullary_writes]; exact Finset.mem_singleton_self _)]
  rfl

theorem Vx_other (c : Dev nD) (b : Ref sig .tc) (hb : b ≠ main_v1) : Vx m c (Proc.devRef .tc b) = V0 m c (Proc.devRef .tc b) := by
  unfold Vx
  exact (StableHlo.nullary (τ := τ) main_v1 (outAt m c)).result_of_not_mem _ (by
    rw [StableHlo.nullary_writes, Finset.mem_singleton]; exact StableHlo.devRef_ne_of_ne hb)

/-! ## The windows' arrays, one by one -/

/-- The distinct buffers behind the five windows: four. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The proof data's arrays, window by window, each at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  rw [(arr_whole0 0).set_eq_univ, (arr_whole0 1).set_eq_univ, (arr_whole0 3).set_eq_univ, (arr_whole0 4).set_eq_univ]
  rfl

/-- ENTRY: the four buffers behind the windows, whole, are the five windows' arrays at the region-entry contents. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H0, H1, H3, H4⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  iexact H4

/-- EXIT: the five windows' arrays after the last point are the four buffers at the exit valuation. -/
theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => Vx m c (Proc.devRef .tc b)) := by
  rw [arrBufs0_eq, arrays0_eq]
  rw [(dats m 0 c).arrAt_in 0 rfl, (dats m 0 c).arrAt_in 1 rfl, (dats m 0 c).arrAt_in 2 rfl, (dats m 0 c).arrAt_in 3 rfl]
  rw [A_eq, A_eq, A_eq, A_eq]
  rw [Vx_other m c main_v0 (by decide), Vx_other m c main_arg1 (by decide), Vx_other m c main_arg2 (by decide), Vx_out]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

/-! ## The segments -/

/-- The host operation before the region. -/
def seg0 : Pipeline.HostSeg (Name := ℕ) (U := UR sig nD τ) (pcfgs (F := F)) defs₀ 𝒱₀ L0 lv0 :=
  Pipeline.HostSeg.ofOps _ _ _ _ _ (Pipeline.ucRefs τ sig) hostOps0
    (fun op h => Pipeline.sub_ucRefs op ((List.forall_iff_forall_mem.mp hostOps0_sub) op h)) hostOps0_fresh (Vl m) R

/-- The host operation after the region, from the exit valuation. -/
def seg1 : Pipeline.HostSeg (Name := ℕ) (U := UR sig nD τ) (pcfgs (F := F)) defs₀ 𝒱₀ L0 lv0 :=
  Pipeline.HostSeg.ofOps _ _ _ _ _ (Pipeline.ucRefs τ sig) hostOps1
    (fun op h => Pipeline.sub_ucRefs op ((List.forall_iff_forall_mem.mp hostOps1_sub) op h)) hostOps1_fresh (Vx m) R

set_option backward.isDefEq.respectTransparency.types false in
/-- The region. -/
def reg0 : Pipeline.RegionSeg (pcfgs (F := F)) adm (dats m) () defs₀ 𝒱₀ L0 lv0 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L0 lv0 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V0 m c) = unscopedBufs c (V m c) from (Pipeline.unscopedBufs_held c _).symm]
    rw [Pipeline.unscopedBufs_split₀ cfgs 0 winFacts₀0.arr_unscoped c (V m c)]
    iintro ⟨⟨⟨Hab, Hrest⟩, ⟨Hp, HO⟩⟩, -, -⟩
    imodintro
    isplitl [Hab]; · iapply (hsplit m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (hin m c)
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (Vx m c) = unscopedBufs c (fun b => Vx m c (Proc.devRef .tc b)) from (Pipeline.unscopedBufs_held c _).symm]
    rw [Pipeline.unscopedBufs_split₀ cfgs 0 winFacts₀0.arr_unscoped c (fun b => Vx m c (Proc.devRef .tc b))]
    rw [unscopedRest0_eq c (V m c), unscopedRest0_eq c (fun b => Vx m c (Proc.devRef .tc b))]
    rw [Vx_other m c main_arg0 (by decide), Vx_other m c main_v2 (by decide)]
    iintro ⟨Ha, HO, Hp, HZ⟩
    imodintro
    isplitr [HO Hp]
    · isplitl [Ha]; · iapply (hjoin m c); iexact Ha
      iexact HZ
    · isplitl [Hp]; · iexact Hp
      unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L0 lv0) :=
  [.host (seg0 m), .region (reg0 m), .host (seg1 m)]

/-! ## What the buffers hold at the end -/

/-- The buffers after the last host operation. -/
abbrev Vend (c : Dev nD) : Valuation τ sig (Elt F) := StableHlo.after hostOps1 (Vx m c)

theorem not_written0 (b : Ref sig .tc) (hb : b ≠ main_v0) : ∀ op ∈ (hostOps0 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne hb

theorem not_written1 (b : Ref sig .tc) (hb : b ≠ main_v2) : ∀ op ∈ (hostOps1 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne hb

/-- An argument array is as launched at the end: no host operation writes it and it is no output of the kernel. -/
theorem Vend_arg (c : Dev nD) (b : Ref sig .tc) (h0 : b ≠ main_v0) (h1 : b ≠ main_v1) (h2 : b ≠ main_v2) :
    Vend m c (Proc.devRef .tc b) = m ((c : Thread nD τ).loc b) :=
  (StableHlo.after_of_forall_not_mem hostOps1 (Vx m c) (not_written1 b h2)).trans
    ((Vx_other m c b h1).trans (StableHlo.after_of_forall_not_mem hostOps0 (fun b => m (c, b)) (not_written0 b h0)))

/-- The program's result is the kernel's result array re-laid as [8192, 2048]. -/
theorem Vend_res (c : Dev nD) :
    (Vend m c (Proc.devRef .tc main_v2) : Buf (Elt F) ((c : Thread nD τ).loc main_v2))
      = shapeCast S8192x2048 (outAt m c) shapeCasts_S16x512x2048_S8192x2048 := by
  have e : (Vend m c (Proc.devRef .tc main_v2) : S8192x2048.Idx → Elt F .f32)
      = shapeCast S8192x2048 (Vx m c (Proc.devRef .tc main_v1)) shapeCasts_S16x512x2048_S8192x2048 := by
    dsimp only [Vend, hostOps1]; after_results; rfl
  exact e.trans (by rw [Vx_out])

/-- The region's array of the token window is the re-laid token array. -/
theorem V_v0 (c : Dev nD) :
    (V m c main_v0 : S16x512x2048.Idx → Elt F .f32)
      = shapeCast S16x512x2048 (m ((c : Thread nD τ).loc main_arg0)) shapeCasts_S8192x2048_S16x512x2048 := by
  dsimp only [V, V0, hostOps0]; after_results; rfl

theorem V_arg1 (c : Dev nD) : V m c main_arg1 = m ((c : Thread nD τ).loc main_arg1) :=
  StableHlo.after_of_forall_not_mem hostOps0 (fun b => m (c, b)) (not_written0 main_arg1 (by decide))
theorem V_arg2 (c : Dev nD) : V m c main_arg2 = m ((c : Thread nD τ).loc main_arg2) :=
  StableHlo.after_of_forall_not_mem hostOps0 (fun b => m (c, b)) (not_written0 main_arg2 (by decide))

/-! ## The run -/

/-- The post: the result at the re-laid result array, the arguments as launched. -/
def QC : PUnit × MemSt nD τ sig (Elt F) → Prop := fun r =>
  ∀ c : Dev nD,
    r.2.mem ((c : Thread nD τ).loc main_v2) = shapeCast S8192x2048 (outAt m c) shapeCasts_S16x512x2048_S8192x2048
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- The thread state at the end. -/
abbrev Tend (c : Dev nD) : sProp 𝕄 :=
  iprop(StableHlo.held (c : Thread nD τ) (Pipeline.ucRefs τ sig) (Vend m c) ∗ ∃ r, prngReg c r)

set_option backward.isDefEq.respectTransparency.types false in
/-- From any memory with zero counters every weakly fair execution of @main terminates, nothing faulting, with the
    result the re-laid result array and the argument arrays unchanged. -/
theorem run_main : θ_run defs (onTc (τ := τ) (main (F := F))) (s₀ m ρ) (QC m) :=
  Pipeline.θ_run_regions_kit (pcfgs (F := F)) adm (dats m) () cellOf_inj EP defs₀ 𝒱₀ L0 lv0 m ρ main (segs m)
    (fun c Q => by rw [main_segs adm (dats m) () 𝒱₀ L0 lv0 (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tend m)
    (hch := ⟨fun _ => .rfl, fun _ => .rfl, fun _ => .rfl, fun c => by
      show iprop(StableHlo.held (c : Thread nD τ) (Pipeline.ucRefs τ sig) (StableHlo.after hostOps1 (Vx m c)) ∗ R c) ⊢ _
      iintro ⟨Hh, Hp, HO⟩
      isplitr [HO]
      · isplitl [Hh]; · iexact Hh
        iexact Hp
      · iexact HO⟩)
    (hinit := by
      refine Pipeline.initEach L0 lv0 fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c : Thread nD τ).loc main_v2) = shapeCast S8192x2048 (outAt m c) shapeCasts_S16x512x2048_S8192x2048
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Tend]
      iintro ⟨⟨Hh, -⟩, HSI⟩
      unfold StableHlo.held
      ihave Hr := (pointsTo_read_all (Pipeline.ucRefs τ sig) (fun b => ((c : Dev nD), b)) (Vend m c) s') $$ [Hh HSI]
      · isplitl [Hh] <;> iassumption
      icases Hr with ⟨%ha, HSI⟩
      imodintro
      isplitr
      · ipureintro
        have hmem : ∀ b : Ref sig .tc, b.isScoped = false → Proc.devRef (τ := τ) .tc b ∈ Pipeline.ucRefs τ sig := fun b hb =>
          Finset.mem_filter.mpr ⟨StableHlo.devRef_mem_tcRefs b, by simp [hb]⟩
        exact ⟨(ha _ (hmem main_v2 rfl)).trans (Vend_res m c),
          (ha _ (hmem main_arg0 rfl)).trans (Vend_arg m c main_arg0 (by decide) (by decide) (by decide)),
          (ha _ (hmem main_arg1 rfl)).trans (Vend_arg m c main_arg1 (by decide) (by decide) (by decide)),
          (ha _ (hmem main_arg2 rfl)).trans (Vend_arg m c main_arg2 (by decide) (by decide) (by decide))⟩
      iexact HSI)
    (hQ := fun _ h => h)

end Cert.Kernel.Hand

end
-- ==== Proof.KI.Setup.lean ====
/-
  What the three runs of the kernel body share.

  The grid is 16 experts by 16 column tiles; point `t` is expert `t / 16`, tile `t % 16`. The body zeroes its
  scratch accumulator at tile 0, adds the tile's contribution at every tile, and copies the accumulator to the
  output block at tile 15. So a point is in one of three cases: the first tile (A), a middle tile (B), the last
  tile (C). Here: the arrays as the region finds them (the token array re-laid as [16, 512, 2048] by the one host
  operation before the region), each input window's block at a point and that the body finds exactly that block
  in the window's buffer (fetched at this point or left from the point before), the two branch conditions in
  closed form, where the output window is idle, and the region invariant with the scratch buffer named.
-/
import proofs.«132630_j37151467110421_1_alg».proof.Proof.Gen.KernelIdeal.Launch
import proofs.«132630_j37151467110421_1_alg».proof.Proof.Gen.KernelIdeal.Skeleton
import proofs.«132630_j37151467110421_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: after the one host operation before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds the window's block at every point, fetched there or left from the point before,
    for any proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds the window's block at every point, fetched there or left from the point before,
    for any proof data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds the window's block at every point, fetched there or left from the point before,
    for any proof data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds the window's block at every point, fetched there or left from the point before,
    for any proof data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first conditional (zero the accumulator): the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (copy the accumulator out): the tile coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging memrefs at a point, and the scratch -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S512x2048 .f32 := Memref.whole cc0_scratch0
/-- The views through which the output block's and the accumulator's contents are stated. -/
abbrev VO0_4 : View sig .tc .vmem S1x512x2048 .f32 := (Memref.whole cc0_stg4_0 : Memref sig .tc .vmem S1x512x2048 .f32).view
abbrev VS0_0 : View sig .tc .vmem S512x2048 .f32 := scM0_0.view

/-- The class's region invariant with the scratch accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a first tile (tile coordinate 0): it zeroes the accumulator, then adds the tile's contribution;
  the output block is not touched.
-/
import proofs.«132630_j37151467110421_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole staging memrefs: the four input buffers at their contents in and out,
    the accumulator ending with the pieces the stores wrote (last first) — found by running the body, each
    conditional decided by the case's hypotheses. -/
noncomputable def kernelRun0_A (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) :
    { LS0 : List (View.Piece (Elt F) S512x2048 .f32) //
      ∀ (xi4 : Vec F S1x512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_mlp_kernel i arg2 harg2 arg3 harg3 arg4 harg4 arg5 harg5 arg6 harg6 arg7 harg7) K } := by
  refine ⟨?_, fun xi4 E K => ?run⟩
  case run =>
    simp only [cc0__expert_mlp_kernel_eq_skeleton]; unfold cc0__expert_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The body at a middle tile (tile coordinate 1 … 14): it adds the tile's contribution to the accumulator the
  tile before left; the output block is not touched.
-/
import proofs.«132630_j37151467110421_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole staging memrefs: the four input buffers at their contents in and out,
    the accumulator ending with the pieces the stores wrote (last first) — found by running the body, each
    conditional decided by the case's hypotheses. -/
noncomputable def kernelRun0_B (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) :
    { LS0 : List (View.Piece (Elt F) S512x2048 .f32) //
      ∀ (xi4 : Vec F S1x512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_mlp_kernel i arg2 harg2 arg3 harg3 arg4 harg4 arg5 harg5 arg6 harg6 arg7 harg7) K } := by
  refine ⟨?_, fun xi4 E K => ?run⟩
  case run =>
    simp only [cc0__expert_mlp_kernel_eq_skeleton]; unfold cc0__expert_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The body at a last tile (tile coordinate 15): it adds the tile's contribution to the accumulator and copies
  the accumulator to the output block.
-/
import proofs.«132630_j37151467110421_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole staging memrefs: the four input buffers at their contents in and out,
    the accumulator ending with the pieces the stores wrote (last first) — found by running the body, each
    conditional decided by the case's hypotheses. -/
noncomputable def kernelRun0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) :
    Σ' (L4 : List (View.Piece (Elt F) S1x512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__expert_mlp_kernel i arg2 harg2 arg3 harg3 arg4 harg4 arg5 harg5 arg6 harg6 arg7 harg7) K } := by
  refine ⟨?_, ?_, fun E K => ?run⟩
  case run =>
    simp only [cc0__expert_mlp_kernel_eq_skeleton]; unfold cc0__expert_mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.KI.Body.lean ====
/-
  The proof data of the pipeline and the body obligation at every point.

  What the accumulator holds after each point is defined by recursion on the point: at a first tile what the
  first-tile run leaves, elsewhere what the middle- or last-tile run leaves over the contents of the point before.
  The region invariant carries the accumulator at exactly those contents from one point to the next. The output
  window's buffer is written only at a last tile, where it holds the accumulator's copy; elsewhere it is idle and
  handed back untouched. The two windows on the gate/up weight array each hold half of that array.
-/
import proofs.«132630_j37151467110421_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) (y : S512x2048.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S512x2048.size (by sl_kernel_rfl) y

/-- What a first tile leaves in the accumulator. -/
def sout0_A (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) : Vec F S512x2048 .f32 :=
  VS0_0.read (Elt F) (VS0_0.writes (Elt F) VS0_0.junk (kernelRun0_A c i arg2 harg2 arg3 harg3 arg4 harg4 arg5 harg5 arg6 harg6 arg7 harg7 hc0 hc1 x0 x1 x2 x3).1)

theorem scover0_B (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) (y : S512x2048.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S512x2048.size (by sl_kernel_rfl) y

/-- What a middle tile leaves in the accumulator. -/
def sout0_B (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).1)

theorem cover0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) (y : S1x512x2048.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x512x2048.size (by sl_kernel_rfl) y

/-- What a last tile leaves in the output block. -/
def out0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) : Vec F S1x512x2048 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) (y : S512x2048.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S512x2048.size (by sl_kernel_rfl) y

/-- What a last tile leaves in the accumulator. -/
def sout0_C (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- The output block's buffer where the body does not store into it: contents nothing consults. -/
def idleOut : Vec F S1x512x2048 .f32 := VO0_4.read (Elt F) VO0_4.junk

/-! ## What the output block and the accumulator hold after each point -/

theorem mod_facts {n : ℕ} (h0 : n % 16 = 0) : ¬ n % 16 = 15 := by omega

/-- After the body at position `n`: the output block's buffer (meaningful at a last tile only) and the accumulator. -/
def outsAt0 (c : Dev nD) : (n : ℕ) → n < cfg0.N → Vec F S1x512x2048 .f32 × Vec F S512x2048 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => mod_facts h0 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first tile. -/
theorem outsAt0_A (c : Dev nD) (t : Fin cfg0.N) (h0 : t.val % 16 = 0) :
    outsAt0 m c t.val t.isLt = (idleOut, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => mod_facts h0 ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle tile: over what the point before left. -/
theorem outsAt0_B (c : Dev nD) (t : Fin cfg0.N) (h0 : ¬t.val % 16 = 0) (h1 : ¬t.val % 16 = 15) :
    outsAt0 m c t.val t.isLt = (idleOut, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt0_C (c : Dev nD) (t : Fin cfg0.N) (h0 : ¬t.val % 16 = 0) (h1 : t.val % 16 = 15) :
    outsAt0 m c t.val t.isLt = (out0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the scratch at anything; afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data on core `c`: the arrays as the region finds them; after the body each input's buffer at its
    block, the output's at `outsAt0`; the invariant `PhiS`; nothing owed; the two windows on the gate/up
    weight array hold one half of it each, every other window its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the closed forms say which case the point is in;
    the case's run applies; the invariant hands the accumulator over at what the point before left (at anything
    at a first tile) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt (show cfg0.N = 256 from N_0)
  by_cases h0 : t.val % 16 = 0
  · have h1 : ¬t.val % 16 = 15 := mod_facts h0
    rw [Dat.leavesExact_idle (dats m 0 c) 4 t (idleAt0_4 t (fun h => h1 ((hcond0_1 t).mp h))) (noFlush0_4 t (fun h => h1 ((hcond0_1 t).mp h)))]
    rw [outsAt0_A m c t h0]
    unfold sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => mod_facts h0 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => mod_facts h0 ((hcond0_1 t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C sout0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region is handed at entry is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.Launch.lean ====
/-
  The launch: @main is one host operation (the token array re-laid as [16, 512, 2048]), the kernel region, and
  one host operation (the result re-laid as [8192, 2048]). Between them the core holds its unscoped buffers whole at
  a valuation, its generator register, and owes nothing. The region takes the five windows' arrays out of those
  buffers — the gate/up weight array, which two windows read, as two halves — and gives them back at the end, the
  result array at what the write-backs left. Read against the final state: the program's result is the re-laid
  result array, and the three argument arrays are as launched.
-/
import proofs.«132630_j37151467110421_1_alg».proof.Proof.KI.Body
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states between the segments -/

/-- Core `c`'s buffers at launch. -/
abbrev Vl (c : Dev nD) : Valuation τ sig (Elt F) := fun b => m (c, b)

/-- What rides beside the buffers: the generator register, and that the core owes nothing. -/
abbrev R (c : Dev nD) : sProp 𝕄 :=
  iprop((∃ r, prngReg c r) ∗ ∃ W, owes (c : Thread nD τ) (0 : CellTallies nD τ sig Unit) W)

abbrev 𝒱₀ : Variants := Variants.none
abbrev L0 : GSem nD τ sig → Finset Unit := fun _ => ∅
abbrev lv0 : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The result array after the region: the entry contents with each expert's block overwritten at its last tile. -/
abbrev outAt (c : Dev nD) : Buf (Elt F) ((c : Thread nD τ).loc main_v1) := (dats m 0 c).arrAt 4 cfg0.N

/-- The buffers when the region is left: as it found them, but for the result array. -/
abbrev Vx (c : Dev nD) : Valuation τ sig (Elt F) := (StableHlo.nullary (τ := τ) main_v1 (outAt m c)).result (V0 m c)

theorem Vx_out (c : Dev nD) : Vx m c (Proc.devRef .tc main_v1) = outAt m c := by
  unfold Vx
  rw [(StableHlo.nullary (τ := τ) main_v1 (outAt m c)).result_of_mem _ (by rw [StableHlo.nullary_writes]; exact Finset.mem_singleton_self _)]
  rfl

theorem Vx_other (c : Dev nD) (b : Ref sig .tc) (hb : b ≠ main_v1) : Vx m c (Proc.devRef .tc b) = V0 m c (Proc.devRef .tc b) := by
  unfold Vx
  exact (StableHlo.nullary (τ := τ) main_v1 (outAt m c)).result_of_not_mem _ (by
    rw [StableHlo.nullary_writes, Finset.mem_singleton]; exact StableHlo.devRef_ne_of_ne hb)

/-! ## The windows' arrays, one by one -/

/-- The distinct buffers behind the five windows: four. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The proof data's arrays, window by window, each at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  rw [(arr_whole0 0).set_eq_univ, (arr_whole0 1).set_eq_univ, (arr_whole0 3).set_eq_univ, (arr_whole0 4).set_eq_univ]
  rfl

/-- ENTRY: the four buffers behind the windows, whole, are the five windows' arrays at the region-entry contents. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H0, H1, H3, H4⟩
  ihave H1 := (pointsTo_share (PosShare.mem_left_op_right fullShare)).1 $$ H1
  icases H1 with ⟨H1, H2⟩
  isplitl [H0]; · iexact H0
  isplitl [H1]; · iexact H1
  isplitl [H2]; · iexact H2
  isplitl [H3]; · iexact H3
  iexact H4

/-- EXIT: the five windows' arrays after the last point are the four buffers at the exit valuation. -/
theorem hjoin (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => Vx m c (Proc.devRef .tc b)) := by
  rw [arrBufs0_eq, arrays0_eq]
  rw [(dats m 0 c).arrAt_in 0 rfl, (dats m 0 c).arrAt_in 1 rfl, (dats m 0 c).arrAt_in 2 rfl, (dats m 0 c).arrAt_in 3 rfl]
  rw [A_eq, A_eq, A_eq, A_eq]
  rw [Vx_other m c main_v0 (by decide), Vx_other m c main_arg1 (by decide), Vx_other m c main_arg2 (by decide), Vx_out]
  iintro ⟨H0, H1, H2, H3, H4⟩
  isplitl [H0]; · iexact H0
  isplitl [H1 H2]
  · iapply (pointsTo_share (PosShare.mem_left_op_right fullShare)).2
    isplitl [H1]; · iexact H1
    iexact H2
  isplitl [H3]; · iexact H3
  iexact H4

/-! ## The segments -/

/-- The host operation before the region. -/
def seg0 : Pipeline.HostSeg (Name := ℕ) (U := UR sig nD τ) (pcfgs (F := F)) defs₀ 𝒱₀ L0 lv0 :=
  Pipeline.HostSeg.ofOps _ _ _ _ _ (Pipeline.ucRefs τ sig) hostOps0
    (fun op h => Pipeline.sub_ucRefs op ((List.forall_iff_forall_mem.mp hostOps0_sub) op h)) hostOps0_fresh (Vl m) R

/-- The host operation after the region, from the exit valuation. -/
def seg1 : Pipeline.HostSeg (Name := ℕ) (U := UR sig nD τ) (pcfgs (F := F)) defs₀ 𝒱₀ L0 lv0 :=
  Pipeline.HostSeg.ofOps _ _ _ _ _ (Pipeline.ucRefs τ sig) hostOps1
    (fun op h => Pipeline.sub_ucRefs op ((List.forall_iff_forall_mem.mp hostOps1_sub) op h)) hostOps1_fresh (Vx m) R

set_option backward.isDefEq.respectTransparency.types false in
/-- The region. -/
def reg0 : Pipeline.RegionSeg (pcfgs (F := F)) adm (dats m) () defs₀ 𝒱₀ L0 lv0 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L0 lv0 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (V0 m c) = unscopedBufs c (V m c) from (Pipeline.unscopedBufs_held c _).symm]
    rw [Pipeline.unscopedBufs_split₀ cfgs 0 winFacts₀0.arr_unscoped c (V m c)]
    iintro ⟨⟨⟨Hab, Hrest⟩, ⟨Hp, HO⟩⟩, -, -⟩
    imodintro
    isplitl [Hab]; · iapply (hsplit m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c from by
      unfold Pipeline.ΦA
      iintro ⟨Hp, -, Hr⟩
      isplitl [Hr]; · iexact Hr
      iexact Hp).trans (hin m c)
  hout c := by
    refine (hout m c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (Vx m c) = unscopedBufs c (fun b => Vx m c (Proc.devRef .tc b)) from (Pipeline.unscopedBufs_held c _).symm]
    rw [Pipeline.unscopedBufs_split₀ cfgs 0 winFacts₀0.arr_unscoped c (fun b => Vx m c (Proc.devRef .tc b))]
    rw [unscopedRest0_eq c (V m c), unscopedRest0_eq c (fun b => Vx m c (Proc.devRef .tc b))]
    rw [Vx_other m c main_arg0 (by decide), Vx_other m c main_v2 (by decide)]
    iintro ⟨Ha, HO, Hp, HZ⟩
    imodintro
    isplitr [HO Hp]
    · isplitl [Ha]; · iapply (hjoin m c); iexact Ha
      iexact HZ
    · isplitl [Hp]; · iexact Hp
      unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L0 lv0) :=
  [.host (seg0 m), .region (reg0 m), .host (seg1 m)]

/-! ## What the buffers hold at the end -/

/-- The buffers after the last host operation. -/
abbrev Vend (c : Dev nD) : Valuation τ sig (Elt F) := StableHlo.after hostOps1 (Vx m c)

theorem not_written0 (b : Ref sig .tc) (hb : b ≠ main_v0) : ∀ op ∈ (hostOps0 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne hb

theorem not_written1 (b : Ref sig .tc) (hb : b ≠ main_v2) : ∀ op ∈ (hostOps1 (F := F)), Proc.devRef .tc b ∉ op.writes := by
  intro op hop
  simp only [List.mem_cons, List.mem_nil_iff, or_false] at hop
  rcases hop with rfl
  simp only [StableHlo.reshape_writes, Finset.mem_singleton]
  exact StableHlo.devRef_ne_of_ne hb

/-- An argument array is as launched at the end: no host operation writes it and it is no output of the kernel. -/
theorem Vend_arg (c : Dev nD) (b : Ref sig .tc) (h0 : b ≠ main_v0) (h1 : b ≠ main_v1) (h2 : b ≠ main_v2) :
    Vend m c (Proc.devRef .tc b) = m ((c : Thread nD τ).loc b) :=
  (StableHlo.after_of_forall_not_mem hostOps1 (Vx m c) (not_written1 b h2)).trans
    ((Vx_other m c b h1).trans (StableHlo.after_of_forall_not_mem hostOps0 (fun b => m (c, b)) (not_written0 b h0)))

/-- The program's result is the kernel's result array re-laid as [8192, 2048]. -/
theorem Vend_res (c : Dev nD) :
    (Vend m c (Proc.devRef .tc main_v2) : Buf (Elt F) ((c : Thread nD τ).loc main_v2))
      = shapeCast S8192x2048 (outAt m c) shapeCasts_S16x512x2048_S8192x2048 := by
  have e : (Vend m c (Proc.devRef .tc main_v2) : S8192x2048.Idx → Elt F .f32)
      = shapeCast S8192x2048 (Vx m c (Proc.devRef .tc main_v1)) shapeCasts_S16x512x2048_S8192x2048 := by
    dsimp only [Vend, hostOps1]; after_results; rfl
  exact e.trans (by rw [Vx_out])

/-- The region's array of the token window is the re-laid token array. -/
theorem V_v0 (c : Dev nD) :
    (V m c main_v0 : S16x512x2048.Idx → Elt F .f32)
      = shapeCast S16x512x2048 (m ((c : Thread nD τ).loc main_arg0)) shapeCasts_S8192x2048_S16x512x2048 := by
  dsimp only [V, V0, hostOps0]; after_results; rfl

theorem V_arg1 (c : Dev nD) : V m c main_arg1 = m ((c : Thread nD τ).loc main_arg1) :=
  StableHlo.after_of_forall_not_mem hostOps0 (fun b => m (c, b)) (not_written0 main_arg1 (by decide))
theorem V_arg2 (c : Dev nD) : V m c main_arg2 = m ((c : Thread nD τ).loc main_arg2) :=
  StableHlo.after_of_forall_not_mem hostOps0 (fun b => m (c, b)) (not_written0 main_arg2 (by decide))

/-! ## The run -/

/-- The post: the result at the re-laid result array, the arguments as launched. -/
def QC : PUnit × MemSt nD τ sig (Elt F) → Prop := fun r =>
  ∀ c : Dev nD,
    r.2.mem ((c : Thread nD τ).loc main_v2) = shapeCast S8192x2048 (outAt m c) shapeCasts_S16x512x2048_S8192x2048
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- The thread state at the end. -/
abbrev Tend (c : Dev nD) : sProp 𝕄 :=
  iprop(StableHlo.held (c : Thread nD τ) (Pipeline.ucRefs τ sig) (Vend m c) ∗ ∃ r, prngReg c r)

set_option backward.isDefEq.respectTransparency.types false in
/-- From any memory with zero counters every weakly fair execution of @main terminates, nothing faulting, with the
    result the re-laid result array and the argument arrays unchanged. -/
theorem run_main : θ_run defs (onTc (τ := τ) (main (F := F))) (s₀ m ρ) (QC m) :=
  Pipeline.θ_run_regions_kit (pcfgs (F := F)) adm (dats m) () cellOf_inj EP defs₀ 𝒱₀ L0 lv0 m ρ main (segs m)
    (fun c Q => by rw [main_segs adm (dats m) () 𝒱₀ L0 lv0 (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tend m)
    (hch := ⟨fun _ => .rfl, fun _ => .rfl, fun _ => .rfl, fun c => by
      show iprop(StableHlo.held (c : Thread nD τ) (Pipeline.ucRefs τ sig) (StableHlo.after hostOps1 (Vx m c)) ∗ R c) ⊢ _
      iintro ⟨Hh, Hp, HO⟩
      isplitr [HO]
      · isplitl [Hh]; · iexact Hh
        iexact Hp
      · iexact HO⟩)
    (hinit := by
      refine Pipeline.initEach L0 lv0 fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c : Thread nD τ).loc main_v2) = shapeCast S8192x2048 (outAt m c) shapeCasts_S16x512x2048_S8192x2048
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Tend]
      iintro ⟨⟨Hh, -⟩, HSI⟩
      unfold StableHlo.held
      ihave Hr := (pointsTo_read_all (Pipeline.ucRefs τ sig) (fun b => ((c : Dev nD), b)) (Vend m c) s') $$ [Hh HSI]
      · isplitl [Hh] <;> iassumption
      icases Hr with ⟨%ha, HSI⟩
      imodintro
      isplitr
      · ipureintro
        have hmem : ∀ b : Ref sig .tc, b.isScoped = false → Proc.devRef (τ := τ) .tc b ∈ Pipeline.ucRefs τ sig := fun b hb =>
          Finset.mem_filter.mpr ⟨StableHlo.devRef_mem_tcRefs b, by simp [hb]⟩
        exact ⟨(ha _ (hmem main_v2 rfl)).trans (Vend_res m c),
          (ha _ (hmem main_arg0 rfl)).trans (Vend_arg m c main_arg0 (by decide) (by decide) (by decide)),
          (ha _ (hmem main_arg1 rfl)).trans (Vend_arg m c main_arg1 (by decide) (by decide) (by decide)),
          (ha _ (hmem main_arg2 rfl)).trans (Vend_arg m c main_arg2 (by decide) (by decide) (by decide))⟩
      iexact HSI)
    (hQ := fun _ h => h)

end Cert.KernelIdeal.Hand

end
-- ==== Proof.KI.Pieces.lean ====
/-
  What each run of the body leaves, as the body's arithmetic.

  In every case the accumulator ends at one covering store's payload: the tile's contribution added to what the
  accumulator held — the contents the point before left (middle and last tiles), or the zero block the same run has just
  stored and read back (first tile). At a last tile the output block ends at the accumulator's final contents under a
  leading unit axis. Every load and store of the body goes through a whole buffer at zero offsets, so a load reads the
  buffer's contents and a store leaves its payload.
-/
import proofs.«132630_j37151467110421_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 buffer, -/
theorem hz2 : (![0, 0] : Fin 2 → Nat) = fun _ => 0 := funext fun a => by fin_cases a <;> rfl
/-- and of a rank-3 one. -/
theorem hz3 : (![0, 0, 0] : Fin 3 → Nat) = fun _ => 0 := funext fun a => by fin_cases a <;> rfl

/-- A MIDDLE tile leaves the tile's contribution added to what the accumulator held. -/
theorem sout0_B_eq (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : ¬cond0_1 i)
    (x0 : Vec F S1x512x2048 .f32) (x1 : Vec F S1x2048x256 .f32) (x2 : Vec F S1x2048x256 .f32) (x3 : Vec F S1x256x2048 .f32) (xs0 : Vec F S512x2048 .f32) :
    sout0_B c i arg2 harg2 arg3 harg3 arg4 harg4 arg5 harg5 arg6 harg6 arg7 harg7 hc0 hc1 x0 x1 x2 x3 xs0 = k0_pay3 x0 x1 x2 x3 xs0 := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x512x2048) hz3, View.ld_unit_zero (S := S1x2048x256) hz3, View.ld_unit_zero (S := S1x256x2048) hz3,
    View.ld_unit_zero (S := S512x2048) hz2]

/-- A LAST tile leaves the same in the accumulator, -/
theorem sout0_C_eq (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) :
    sout0_C c i arg2 harg2 arg3 harg3 arg4 harg4 arg5 harg5 arg6 harg6 arg7 harg7 hc0 hc1 x0 x1 x2 x3 xs0 = k0_pay3 x0 x1 x2 x3 xs0 := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x512x2048) hz3, View.ld_unit_zero (S := S1x2048x256) hz3, View.ld_unit_zero (S := S1x256x2048) hz3,
    View.ld_unit_zero (S := S512x2048) hz2]

/-- and the accumulator's final contents, under a leading unit axis, in the output block. -/
theorem out0_C_eq (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : ¬cond0_0 i) (hc1 : cond0_1 i)
    (x0 : Vec F S1x512x2048 .f32) (x1 : Vec F S1x2048x256 .f32) (x2 : Vec F S1x2048x256 .f32) (x3 : Vec F S1x256x2048 .f32) (xs0 : Vec F S512x2048 .f32) :
    out0_C c i arg2 harg2 arg3 harg3 arg4 harg4 arg5 harg5 arg6 harg6 arg7 harg7 hc0 hc1 x0 x1 x2 x3 xs0 = k0_pay1 (k0_pay3 x0 x1 x2 x3 xs0) := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S512x2048) _ hz2]
  simp only [View.readAt_eq_ld, harg2.read_unread, harg3.read_unread, harg4.read_unread, harg5.read_unread, harg7.read_unread,
    View.ld_unit_zero (S := S1x512x2048) hz3, View.ld_unit_zero (S := S1x2048x256) hz3, View.ld_unit_zero (S := S1x256x2048) hz3,
    View.ld_unit_zero (S := S512x2048) hz2]

/-- A FIRST tile leaves the tile's contribution added to the zero block. -/
theorem sout0_A_eq (c : Dev nD) (i : grid0.Coords) (arg2 : Memref sig .tc .vmem S1x512x2048 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x512x2048 .f32) (harg6 : arg6.IsWhole) (arg7 : Memref sig .tc .vmem S512x2048 .f32) (harg7 : arg7.IsWhole) (hc0 : cond0_0 i) (hc1 : ¬cond0_1 i)
    (x0 : Vec F S1x512x2048 .f32) (x1 : Vec F S1x2048x256 .f32) (x2 : Vec F S1x2048x256 .f32) (x3 : Vec F S1x256x2048 .f32) :
    sout0_A c i arg2 harg2 arg3 harg3 arg4 harg4 arg5 harg5 arg6 harg6 arg7 harg7 hc0 hc1 x0 x1 x2 x3 = k0_pay3 x0 x1 x2 x3 (k0_pay2 (F := F)) := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg2.read_unread, harg3.read_unread, harg4.read_unread, harg5.read_unread,
    View.ld_unit_zero (S := S1x512x2048) hz3, View.ld_unit_zero (S := S1x2048x256) hz3, View.ld_unit_zero (S := S1x256x2048) hz3,
    View.ld_unit_zero (S := S512x2048) hz2]

end Cert.KernelIdeal.Hand

end
-- ==== Proof.AccSpec.lean ====
/-
  The accumulation the kernel performs, as pure functions of the three operand arrays.

  For expert `e` the grid walks the sixteen column tiles `ib = 0 … 15` of the expert dimension. At tile `ib` the
  body reads the expert's tokens (rows `e` of the token array: `tokBlk`), the gate columns `ib·256 … ib·256+255`
  (`gateBlk`), the up columns `(ib+16)·256 …` of the same weight array (`upBlk`) and the rows `ib·256 …` of the
  down projection (`downBlk`), and adds its contribution to the running sum: `acc e 0` starts from the zero
  block, `acc e (n+1)` from `acc e n`. After the sixteenth tile the running sum is the expert's result (`outBlk`).
-/
import proofs.«132630_j37151467110421_1_alg».proof.Proof.Gen.KernelIdeal.Skeleton
import Idealize.ShloMosaic.Lib.ValueIdx

noncomputable section

namespace Cert.KernelIdeal.Acc

open Idealize.ShloMosaic Idealize.ShloMosaic.ValueIdx Cert.KernelIdeal Cert.KernelIdeal.Gen

variable {F : FTy → Type} [FloatOps F]

/-- Expert `e`'s 512 tokens, as the one-expert block the body loads. -/
def tokBlk (hs : Vec F S16x512x2048 .f32) (e : Fin 16) : Vec F S1x512x2048 .f32 :=
  fun y => hs (ix3 e (y 1) (y 2))

/-- Columns `(ib % 16)·256 + j` of expert `e`'s gate/up weights: tile `ib` of the gate half. -/
def gateBlk (w : Vec F S16x2048x8192 .f32) (e : Fin 16) (ib : ℕ) : Vec F S1x2048x256 .f32 :=
  fun y => w (ix3 e (y 1) ⟨(ib % 16) * 256 + (y 2).val, by
    have h : (y 2).val < 256 := (y 2).isLt
    have h' : ib % 16 < 16 := Nat.mod_lt _ (by decide)
    show (ib % 16) * 256 + (y 2).val < 8192; omega⟩)

/-- Columns `(ib % 16 + 16)·256 + j`: tile `ib` of the up half of the same array. -/
def upBlk (w : Vec F S16x2048x8192 .f32) (e : Fin 16) (ib : ℕ) : Vec F S1x2048x256 .f32 :=
  fun y => w (ix3 e (y 1) ⟨(ib % 16 + 16) * 256 + (y 2).val, by
    have h : (y 2).val < 256 := (y 2).isLt
    have h' : ib % 16 < 16 := Nat.mod_lt _ (by decide)
    show (ib % 16 + 16) * 256 + (y 2).val < 8192; omega⟩)

/-- Rows `(ib % 16)·256 + k` of expert `e`'s down projection. -/
def downBlk (d : Vec F S16x4096x2048 .f32) (e : Fin 16) (ib : ℕ) : Vec F S1x256x2048 .f32 :=
  fun y => d (ix3 e ⟨(ib % 16) * 256 + (y 1).val, by
    have h : (y 1).val < 256 := (y 1).isLt
    have h' : ib % 16 < 16 := Nat.mod_lt _ (by decide)
    show (ib % 16) * 256 + (y 1).val < 4096; omega⟩ (y 2))

/-- The running sum after tile `n` of expert `e`. -/
def acc (hs : Vec F S16x512x2048 .f32) (w : Vec F S16x2048x8192 .f32) (d : Vec F S16x4096x2048 .f32) (e : Fin 16) :
    ℕ → FVec F S512x2048 .f32
  | 0 => k0_pay3 (tokBlk hs e) (gateBlk w e 0) (upBlk w e 0) (downBlk d e 0) (k0_pay2 (F := F))
  | n + 1 => k0_pay3 (tokBlk hs e) (gateBlk w e (n + 1)) (upBlk w e (n + 1)) (downBlk d e (n + 1)) (acc hs w d e n)

/-- What expert `e`'s output block holds after the last tile. -/
def outBlk (hs : Vec F S16x512x2048 .f32) (w : Vec F S16x2048x8192 .f32) (d : Vec F S16x4096x2048 .f32) (e : Fin 16) :
    FVec F S1x512x2048 .f32 :=
  k0_pay1 (acc hs w d e 15)

/-- The whole result array: expert `e`'s rows are its output block. -/
def outArr (hs : Vec F S16x512x2048 .f32) (w : Vec F S16x2048x8192 .f32) (d : Vec F S16x4096x2048 .f32) :
    Vec F S16x512x2048 .f32 :=
  fun i => outBlk hs w d (i 0) (ix3 (0 : Fin 1) (i 1) (i 2))

end Cert.KernelIdeal.Acc

end
-- ==== Proof.KI.Blocks.lean ====
/-
  The input blocks of a grid point, as pure functions of the arrays.

  Point `t` of the 16 × 16 grid is expert `t / 16`, column tile `t % 16`. Read off the arrays as the region finds them, the
  token window's block at `t` is the expert's 512 token rows; the first weight window's block is columns
  `(t % 16)·256 … +255` of the expert's weight matrix (a tile of the gate half), the second weight window's block columns
  `(t % 16 + 16)·256 … +255` of the same matrix (the matching tile of the up half), and the down window's block rows
  `(t % 16)·256 … +255` of the expert's down projection. A block's entry at a block index sits in the array at block
  index × block size + the coordinate inside the block, on every axis; the block indices are the printed index maps,
  decided once over the 256 grid points.
-/
import proofs.«132630_j37151467110421_1_alg».proof.Proof.KI.Setup
import proofs.«132630_j37151467110421_1_alg».proof.Proof.AccSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-- The five windows' block indices at point `t`, in closed form: every window sits on expert `t / 16`; the two weight
    windows move along the columns with the tile `t % 16` (the second one sixteen tiles further), the down window along
    the rows; the token window and the output window do not move within an expert. -/
theorem idx_facts : ∀ t : Fin cfg0.N,
    win0_0.index t 0 = t.val / 16 ∧ win0_0.index t 1 = 0 ∧ win0_0.index t 2 = 0
    ∧ win0_1.index t 0 = t.val / 16 ∧ win0_1.index t 1 = 0 ∧ win0_1.index t 2 = t.val % 16
    ∧ win0_2.index t 0 = t.val / 16 ∧ win0_2.index t 1 = 0 ∧ win0_2.index t 2 = t.val % 16 + 16
    ∧ win0_3.index t 0 = t.val / 16 ∧ win0_3.index t 1 = t.val % 16 ∧ win0_3.index t 2 = 0
    ∧ win0_4.index t 0 = t.val / 16 ∧ win0_4.index t 1 = 0 ∧ win0_4.index t 2 = 0 :=
  (by decide +kernel : ∀ t : Fin grid0.N, _)

/-- The grid has 256 points. -/
theorem lt_N (t : Fin cfg0.N) : t.val < 256 := lt_of_lt_of_eq t.isLt (show cfg0.N = 256 from N_0)

/-- The expert of grid point `t`. -/
def expertOf (t : Fin cfg0.N) : Fin 16 := ⟨t.val / 16, by have := lt_N t; omega⟩

theorem expertOf_val (t : Fin cfg0.N) : (expertOf t).val = t.val / 16 := rfl

/-- The token window's block at `t`: the expert's tokens. -/
theorem iblk0_eq (c : Dev nD) (t : Fin cfg0.N) :
    (iblk m c 0 t : Vec F S1x512x2048 .f32) = Acc.tokBlk (V m c main_v0) (expertOf t) := by
  obtain ⟨e0, e1, e2, -⟩ := idx_facts t
  funext y
  unfold iblk Acc.tokBlk
  rw [View.read_apply]
  show V m c main_v0 _ = V m c main_v0 _
  refine congrArg (V m c main_v0) (funext fun a => Fin.ext ?_)
  have h0 : (y 0).val < 1 := (y 0).isLt
  match a with
  | ⟨0, _⟩ => show win0_0.index t 0 * 1 + 1 * (y 0).val = t.val / 16; rw [e0]; omega
  | ⟨1, _⟩ => show win0_0.index t 1 * 512 + 1 * (y 1).val = (y 1).val; rw [e1]; omega
  | ⟨2, _⟩ => show win0_0.index t 2 * 2048 + 1 * (y 2).val = (y 2).val; rw [e2]; omega

/-- The first weight window's block at `t`: tile `t % 16` of the expert's gate columns. -/
theorem iblk1_eq (c : Dev nD) (t : Fin cfg0.N) :
    (iblk m c 1 t : Vec F S1x2048x256 .f32) = Acc.gateBlk (V m c main_arg1) (expertOf t) t.val := by
  obtain ⟨-, -, -, e0, e1, e2, -⟩ := idx_facts t
  funext y
  unfold iblk Acc.gateBlk
  rw [View.read_apply]
  show V m c main_arg1 _ = V m c main_arg1 _
  refine congrArg (V m c main_arg1) (funext fun a => Fin.ext ?_)
  have h0 : (y 0).val < 1 := (y 0).isLt
  match a with
  | ⟨0, _⟩ => show win0_1.index t 0 * 1 + 1 * (y 0).val = t.val / 16; rw [e0]; omega
  | ⟨1, _⟩ => show win0_1.index t 1 * 2048 + 1 * (y 1).val = (y 1).val; rw [e1]; omega
  | ⟨2, _⟩ => show win0_1.index t 2 * 256 + 1 * (y 2).val = t.val % 16 * 256 + (y 2).val; rw [e2]; omega

/-- The second weight window's block at `t`: tile `t % 16` of the expert's up columns. -/
theorem iblk2_eq (c : Dev nD) (t : Fin cfg0.N) :
    (iblk m c 2 t : Vec F S1x2048x256 .f32) = Acc.upBlk (V m c main_arg1) (expertOf t) t.val := by
  obtain ⟨-, -, -, -, -, -, e0, e1, e2, -⟩ := idx_facts t
  funext y
  unfold iblk Acc.upBlk
  rw [View.read_apply]
  show V m c main_arg1 _ = V m c main_arg1 _
  refine congrArg (V m c main_arg1) (funext fun a => Fin.ext ?_)
  have h0 : (y 0).val < 1 := (y 0).isLt
  match a with
  | ⟨0, _⟩ => show win0_2.index t 0 * 1 + 1 * (y 0).val = t.val / 16; rw [e0]; omega
  | ⟨1, _⟩ => show win0_2.index t 1 * 2048 + 1 * (y 1).val = (y 1).val; rw [e1]; omega
  | ⟨2, _⟩ => show win0_2.index t 2 * 256 + 1 * (y 2).val = (t.val % 16 + 16) * 256 + (y 2).val; rw [e2]; omega

/-- The down window's block at `t`: rows `(t % 16)·256 …` of the expert's down projection. -/
theorem iblk3_eq (c : Dev nD) (t : Fin cfg0.N) :
    (iblk m c 3 t : Vec F S1x256x2048 .f32) = Acc.downBlk (V m c main_arg2) (expertOf t) t.val := by
  obtain ⟨-, -, -, -, -, -, -, -, -, e0, e1, e2, -⟩ := idx_facts t
  funext y
  unfold iblk Acc.downBlk
  rw [View.read_apply]
  show V m c main_arg2 _ = V m c main_arg2 _
  refine congrArg (V m c main_arg2) (funext fun a => Fin.ext ?_)
  have h0 : (y 0).val < 1 := (y 0).isLt
  match a with
  | ⟨0, _⟩ => show win0_3.index t 0 * 1 + 1 * (y 0).val = t.val / 16; rw [e0]; omega
  | ⟨1, _⟩ => show win0_3.index t 1 * 256 + 1 * (y 1).val = t.val % 16 * 256 + (y 1).val; rw [e1]; omega
  | ⟨2, _⟩ => show win0_3.index t 2 * 2048 + 1 * (y 2).val = (y 2).val; rw [e2]; omega

end Cert.KernelIdeal.Hand

end
-- ==== Proof.KI.ValueOf.lean ====
/-
  What the kernel's run leaves in the result array, as a pure function of the arrays.

  The accumulator after grid point `n` is, by induction on the point, the running sum of expert `n / 16` after its tile
  `n % 16`: a first tile starts from the zero block, every later tile adds its contribution to what the point before left,
  and a tile's blocks are the expert's tokens, the gate and up column tiles and the down row tile with that number. At a
  last tile the output block is the accumulator under a leading unit axis: the expert's output block. The output window is
  written back exactly at the last tiles, expert `e`'s block into rows `(e, ·, ·)` of the result array; those sixteen blocks
  cover the array, so it ends holding, expert by expert, that output block.
-/
import proofs.«132630_j37151467110421_1_alg».proof.Proof.KI.Pieces
import proofs.«132630_j37151467110421_1_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)
/-! ## The blocks of a tile depend on the tile number modulo 16 only -/

/-- Two tile numbers with the same residue name the same gate column tile, -/
theorem gateBlk_congr (w : Vec F S16x2048x8192 .f32) (e : Fin 16) {a b : ℕ} (h : a % 16 = b % 16) :
    Acc.gateBlk w e a = Acc.gateBlk w e b := by
  funext y
  unfold Acc.gateBlk
  exact congrArg w (congrArg (ix3 e (y 1)) (Fin.ext (by show a % 16 * 256 + (y 2).val = b % 16 * 256 + (y 2).val; rw [h])))

/-- the same up column tile, -/
theorem upBlk_congr (w : Vec F S16x2048x8192 .f32) (e : Fin 16) {a b : ℕ} (h : a % 16 = b % 16) :
    Acc.upBlk w e a = Acc.upBlk w e b := by
  funext y
  unfold Acc.upBlk
  exact congrArg w (congrArg (ix3 e (y 1)) (Fin.ext (by show (a % 16 + 16) * 256 + (y 2).val = (b % 16 + 16) * 256 + (y 2).val; rw [h])))

/-- and the same down row tile. -/
theorem downBlk_congr (d : Vec F S16x4096x2048 .f32) (e : Fin 16) {a b : ℕ} (h : a % 16 = b % 16) :
    Acc.downBlk d e a = Acc.downBlk d e b := by
  funext y
  unfold Acc.downBlk
  exact congrArg d (congrFun (congrArg (ix3 e) (Fin.ext (by show a % 16 * 256 + (y 1).val = b % 16 * 256 + (y 1).val; rw [h]))) (y 2))

/-! ## The accumulator after each point -/

/-- After a FIRST tile the accumulator holds the tile's contribution over the zero block. -/
theorem acc_first (c : Dev nD) (t : Fin cfg0.N) (h0 : t.val % 16 = 0) :
    (outsAt0 m c t.val t.isLt).2
      = k0_pay3 (iblk m c 0 t) (iblk m c 1 t) (iblk m c 2 t) (iblk m c 3 t) (k0_pay2 (F := F)) := by
  rw [outsAt0_A m c t h0]
  dsimp only
  exact sout0_A_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => mod_facts h0 ((hcond0_1 t).mp h)) (iblk m c 0 t) (iblk m c 1 t) (iblk m c 2 t) (iblk m c 3 t)

/-- After any LATER tile it holds the tile's contribution over what the point before left. -/
theorem acc_later (c : Dev nD) (t : Fin cfg0.N) (h0 : ¬t.val % 16 = 0) :
    (outsAt0 m c t.val t.isLt).2
      = k0_pay3 (iblk m c 0 t) (iblk m c 1 t) (iblk m c 2 t) (iblk m c 3 t) (outsAt0 m c (t.val - 1) (Nat.lt_of_le_of_lt (Nat.sub_le _ _) t.isLt)).2 := by
  by_cases h1 : t.val % 16 = 15
  · rw [outsAt0_C m c t h0 h1]
    dsimp only
    exact sout0_C_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact sout0_B_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a LAST tile the output block holds the accumulator under a leading unit axis. -/
theorem out_last (c : Dev nD) (t : Fin cfg0.N) (h0 : ¬t.val % 16 = 0) (h1 : t.val % 16 = 15) :
    (outsAt0 m c t.val t.isLt).1 = k0_pay1 (outsAt0 m c t.val t.isLt).2 := by
  rw [acc_later m c t h0, outsAt0_C m c t h0 h1]
  dsimp only
  exact out0_C_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- THE ACCUMULATOR AFTER POINT `n`: the running sum of expert `n / 16` after its tile `n % 16`. By induction on the point. -/
theorem acc_at (c : Dev nD) (n : ℕ) : ∀ hn : n < cfg0.N,
    (outsAt0 m c n hn).2
      = Acc.acc (V m c main_v0) (V m c main_arg1) (V m c main_arg2) (expertOf ⟨n, hn⟩) (n % 16) := by
  induction n with
  | zero =>
    intro hn
    rw [acc_first m c ⟨0, hn⟩ (Nat.zero_mod _), iblk0_eq, iblk1_eq, iblk2_eq, iblk3_eq]
    rfl
  | succ k ih =>
    intro hn
    have hk : k + 1 < 256 := lt_N ⟨k + 1, hn⟩
    by_cases h0 : (k + 1) % 16 = 0
    · rw [acc_first m c ⟨k + 1, hn⟩ h0, iblk0_eq, iblk1_eq, iblk2_eq, iblk3_eq, h0,
        gateBlk_congr _ _ (show (k + 1) % 16 = 0 % 16 from h0), upBlk_congr _ _ (show (k + 1) % 16 = 0 % 16 from h0),
        downBlk_congr _ _ (show (k + 1) % 16 = 0 % 16 from h0)]
      rfl
    · have hprev : (outsAt0 m c ((⟨k + 1, hn⟩ : Fin cfg0.N).val - 1) (Nat.lt_of_le_of_lt (Nat.sub_le _ _) (⟨k + 1, hn⟩ : Fin cfg0.N).isLt)).2
          = Acc.acc (V m c main_v0) (V m c main_arg1) (V m c main_arg2) (expertOf ⟨k + 1, hn⟩) (k % 16) := by
        have he : expertOf ⟨k, Nat.lt_of_succ_lt hn⟩ = expertOf ⟨k + 1, hn⟩ := Fin.ext (by
          show k / 16 = (k + 1) / 16
          omega)
        rw [← he]
        exact ih (Nat.lt_of_succ_lt hn)
      have hm : (k + 1) % 16 = k % 16 + 1 := by omega
      rw [acc_later m c ⟨k + 1, hn⟩ h0, hprev, iblk0_eq, iblk1_eq, iblk2_eq, iblk3_eq, hm,
        gateBlk_congr _ _ (show (k + 1) % 16 = (k % 16 + 1) % 16 by omega), upBlk_congr _ _ (show (k + 1) % 16 = (k % 16 + 1) % 16 by omega),
        downBlk_congr _ _ (show (k + 1) % 16 = (k % 16 + 1) % 16 by omega)]
      rfl

/-- The same at a grid point. -/
theorem acc_at_point (c : Dev nD) (t : Fin cfg0.N) :
    (outsAt0 m c t.val t.isLt).2
      = Acc.acc (V m c main_v0) (V m c main_arg1) (V m c main_arg2) (expertOf t) (t.val % 16) :=
  acc_at m c t.val t.isLt

/-- THE OUTPUT BLOCK AFTER A LAST TILE: the expert's output block. -/
theorem out_at_last (c : Dev nD) (t : Fin cfg0.N) (h1 : t.val % 16 = 15) :
    (outsAt0 m c t.val t.isLt).1 = Acc.outBlk (V m c main_v0) (V m c main_arg1) (V m c main_arg2) (expertOf t) := by
  rw [out_last m c t (by omega) h1, acc_at_point, h1]
  rfl

/-! ## The result array -/

/-- What a last tile writes back is its expert's rows of the whole result: the block's entry `(0, p, q)` sits at `(e, p, q)`. -/
theorem flushed_eq (c : Dev nD) (t : Fin cfg0.N) (hf : (cfg0.win 4).flush t = true) :
    (dats m 0 c).flushed 4 t
      = ((cfg0.win 4).blk t).view.read (Elt F) (Acc.outArr (V m c main_v0) (V m c main_arg1) (V m c main_arg2)) := by
  have h1 : t.val % 16 = 15 := (flush0_4 t).mp hf
  obtain ⟨-, -, -, -, -, -, -, -, -, -, -, -, e0, e1, e2⟩ := idx_facts t
  show (cfg0.win 4).cut (grid0.coords t) ((dats m 0 c).after 4 t) = _
  rw [after0_4, out_at_last m c t h1]
  funext y
  rw [View.read_apply]
  show Acc.outBlk (V m c main_v0) (V m c main_arg1) (V m c main_arg2) (expertOf t) ((cfg0.win 4).xinj (grid0.coords t) y)
    = Acc.outArr (V m c main_v0) (V m c main_arg1) (V m c main_arg2) (((cfg0.win 4).blk t).view.emb y)
  unfold Acc.outArr
  have hy0 : (y 0).val < 1 := (y 0).isLt
  refine congrArg₂ (Acc.outBlk (V m c main_v0) (V m c main_arg1) (V m c main_arg2)) (Fin.ext ?_) (funext fun a => Fin.ext ?_)
  · show t.val / 16 = win0_4.index t 0 * 1 + 1 * (y 0).val
    rw [e0]; omega
  · match a with
    | ⟨0, _⟩ => show (y 0).val = 0; omega
    | ⟨1, _⟩ => show (y 1).val = win0_4.index t 1 * 512 + 1 * (y 1).val; rw [e1]; omega
    | ⟨2, _⟩ => show (y 2).val = win0_4.index t 2 * 2048 + 1 * (y 2).val; rw [e2]; omega

/-- Every entry of the result array is written back: row block `e` by the last tile of expert `e`. -/
theorem covered (i : S16x512x2048.Idx) :
    ∃ t : Fin cfg0.N, (cfg0.win 4).flush t = true ∧ i ∈ ((cfg0.win 4).blk t).view.set := by
  have hi0 : (i 0).val < 16 := (i 0).isLt
  have hi1 : (i 1).val < 512 := (i 1).isLt
  have hi2 : (i 2).val < 2048 := (i 2).isLt
  have hN : cfg0.N = 256 := N_0
  let t : Fin cfg0.N := ⟨(i 0).val * 16 + 15, by rw [hN]; omega⟩
  have htv : t.val = (i 0).val * 16 + 15 := rfl
  obtain ⟨-, -, -, -, -, -, -, -, -, -, -, -, e0, e1, e2⟩ := idx_facts t
  refine ⟨t, (flush0_4 t).mpr (by rw [htv]; omega), ?_⟩
  show i ∈ ((View.whole main_v1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [e0, htv]; omega
  | ⟨1, _⟩ =>
    show win0_4.index t 1 * 512 ≤ (i 1).val ∧ (i 1).val < win0_4.index t 1 * 512 + 512
    rw [e1]; omega
  | ⟨2, _⟩ =>
    show win0_4.index t 2 * 2048 ≤ (i 2).val ∧ (i 2).val < win0_4.index t 2 * 2048 + 2048
    rw [e2]; omega

/-- THE RESULT ARRAY after the run: expert by expert, the output block the sixteenth tile leaves. -/
theorem outAt_eq (c : Dev nD) :
    (dats m 0 c).arrAt 4 cfg0.N = Acc.outArr (V m c main_v0) (V m c main_arg1) (V m c main_arg2) :=
  (dats m 0 c).arrAt_eq_of_cover 4 (Acc.outArr (V m c main_v0) (V m c main_arg1) (V m c main_arg2))
    (flushed_eq m c) covered

end Cert.KernelIdeal.Hand

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«132630_j37151467110421_1_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.Spec.lean ====
/-
  The grouped expert MLP as one formula over the three operand arrays, entry by entry.

  Expert `e` owns the token rows `(e, ·, ·)` of the token array, one `2048 × 8192` weight matrix whose columns `0 … 4095` are
  the gate projection and `4096 … 8191` the up projection, and one `4096 × 2048` down projection. For token `p` of expert `e`,

      gate i = Σ_h tokens (e, p, h) · weights (e, h, i),        up i = Σ_h tokens (e, p, h) · weights (e, h, 4096 + i),
      result (e, p, q) = Σ_{i < 4096} (up i · (gate i · 1 / (1 + exp (− gate i)))) · down (e, i, q).

  All arithmetic is that of the extended reals; the literal `1` is kept as the f32 word `0x3F800000` both programs print, so it
  is never evaluated. Nothing here needs an entry to be finite.
-/
import Idealize.ShloMosaic.PureOps.Ideal
import Idealize.ShloMosaic.Lib.ValueIdx

noncomputable section

open scoped BigOperators

namespace Cert.Proof.Spec

open Idealize.ShloMosaic Idealize.ShloMosaic.ValueIdx

/-- The token array's shape: expert, token, hidden coordinate. -/
abbrev STok : Shape := ⟨3, ![16, 512, 2048]⟩
/-- The gate/up weights' shape: expert, hidden coordinate, column (gate columns first, then up columns). -/
abbrev SWgt : Shape := ⟨3, ![16, 2048, 8192]⟩
/-- The down projection's shape: expert, intermediate coordinate, hidden coordinate. -/
abbrev SDown : Shape := ⟨3, ![16, 4096, 2048]⟩

/-- The literal `1.0`, as the f32 word both programs carry. -/
def one : EReal := Ideal.ofBits .f32 0x3F800000#32

/-- `g · (1 / (1 + exp (−g)))`: the gate value times its logistic weight. -/
def silu (g : EReal) : EReal := g * Ideal.div one (one + Ideal.exp (-g))

/-- Token `p` of expert `e` against column `c` of the expert's weight matrix. -/
def proj (hs : STok.Idx → EReal) (w : SWgt.Idx → EReal) (e : Fin 16) (p : Fin 512) (c : Fin 8192) : EReal :=
  ∑ h : Fin 2048, hs (ix3 e p h) * w (ix3 e h c)

/-- One intermediate coordinate's contribution to entry `(e, p, q)`: the up value at column `cu` times the gated value at
    column `cg`, times the down projection's row `r` at `q`. -/
def term (hs : STok.Idx → EReal) (w : SWgt.Idx → EReal) (d : SDown.Idx → EReal) (e : Fin 16) (p : Fin 512) (q : Fin 2048)
    (cg cu : Fin 8192) (r : Fin 4096) : EReal :=
  (proj hs w e p cu * silu (proj hs w e p cg)) * d (ix3 e r q)

/-- Intermediate coordinate `i`'s gate column. -/
def gateCol (i : Fin 4096) : Fin 8192 := ⟨i.val, by have := i.isLt; omega⟩
/-- Intermediate coordinate `i`'s up column. -/
def upCol (i : Fin 4096) : Fin 8192 := ⟨4096 + i.val, by have := i.isLt; omega⟩

/-- Entry `(e, p, q)` of the result: the sum over the 4096 intermediate coordinates. -/
def specAt (hs : STok.Idx → EReal) (w : SWgt.Idx → EReal) (d : SDown.Idx → EReal) (e : Fin 16) (p : Fin 512) (q : Fin 2048) : EReal :=
  ∑ i : Fin 4096, term hs w d e p q (gateCol i) (upCol i) i

/-- The result array. -/
def spec (hs : STok.Idx → EReal) (w : SWgt.Idx → EReal) (d : SDown.Idx → EReal) : STok.Idx → EReal :=
  fun i => specAt hs w d (i 0) (i 1) (i 2)

theorem spec_ix3 (hs : STok.Idx → EReal) (w : SWgt.Idx → EReal) (d : SDown.Idx → EReal) (e : Fin 16) (p : Fin 512) (q : Fin 2048) :
    spec hs w d (ix3 e p q) = specAt hs w d e p q := rfl

end Cert.Proof.Spec

end
-- ==== Proof.Tile.lean ====
/-
  One tile of the accumulation, read at an entry.

  At one grid point the body holds the expert's 512 tokens, 256 gate columns and 256 up columns of its weights, 256 rows
  of its down projection, and the running sum. It forms the two 512 × 256 projections (token rows against the gate and the
  up columns), weights the up value by `g · 1 / (1 + exp (0 − g))` of the gate value `g`, multiplies the 512 × 256 result
  into the 256 down rows, and adds that to the running sum. Over the extended reals the format changes are the identity,
  a product into a zero accumulator is the plain sum over the contracted coordinate, and `0 − g = −g`; so entry `(p, q)` of
  the new running sum is the old entry plus the sum over the tile's 256 coordinates `k` of

      (Σ_h tok (p, h) · up (h, k)) · silu (Σ_h tok (p, h) · gate (h, k)) · down (k, q).
-/
import proofs.«132630_j37151467110421_1_alg».proof.Proof.Gen.KernelIdeal.Skeleton
import proofs.«132630_j37151467110421_1_alg».proof.Proof.LibDot2
import proofs.«132630_j37151467110421_1_alg».proof.Proof.Spec
import Idealize.ShloMosaic.Lib.ValueLayout

noncomputable section

open scoped BigOperators

namespace Cert.Proof.Tile

open Idealize.ShloMosaic Idealize.ShloMosaic.ValueIdx Cert.KernelIdeal Cert.KernelIdeal.Gen

/-- The tokens against 256 columns of the weights: a 512 × 2048 by 2048 × 256 product into a zero accumulator, both
    operands arriving as one-expert blocks. -/
def projTile (tok : Vec Ideal S1x512x2048 .f32) (col : Vec Ideal S1x2048x256 .f32) : FVec Ideal S512x256 .f32 :=
  matmul dot_S512x2048_S2048x256_S512x256_1_0_0_1_n_n none
    (truncf .bf16 (shapeCast S512x2048 tok shapeCasts_S1x512x2048_S512x2048 : FVec Ideal S512x2048 .f32) bitsLt_bf16_f32)
    (truncf .bf16 (shapeCast S2048x256 col shapeCasts_S1x2048x256_S2048x256 : FVec Ideal S2048x256 .f32) bitsLt_bf16_f32)
    (constant S512x256 .f32 0x00000000#32)

/-- The up values weighted by the gated gate values, entry by entry. -/
def actTile (g u : FVec Ideal S512x256 .f32) : FVec Ideal S512x256 .bf16 :=
  truncf .bf16
    (mulf u (mulf g
      (divf (broadcast S512x256 (Scalar.ofBits (F := Ideal) .f32 0x3F800000#32))
        (addf (broadcast S512x256 (Scalar.ofBits (F := Ideal) .f32 0x3F800000#32))
          (exp (subf (broadcast S512x256 (Scalar.ofBits (F := Ideal) .f32 0x00000000#32)) g))))))
    bitsLt_bf16_f32

/-- The body's arithmetic is those pieces composed: the weighted tile times the down rows, added to the running sum. -/
theorem pay3_eq (tok : Vec Ideal S1x512x2048 .f32) (gate up : Vec Ideal S1x2048x256 .f32) (down : Vec Ideal S1x256x2048 .f32)
    (run : Vec Ideal S512x2048 .f32) :
    k0_pay3 tok gate up down run
      = shapeCast S512x2048
          (addf run
            (matmul dot_S512x256_S256x2048_S512x2048_1_0_0_1_n_n none (actTile (projTile tok gate) (projTile tok up))
              (truncf .bf16 (shapeCast S256x2048 down shapeCasts_S1x256x2048_S256x2048 : FVec Ideal S256x2048 .f32) bitsLt_bf16_f32)
              (constant S512x2048 .f32 0x00000000#32)) : FVec Ideal S512x2048 .f32)
          shapeCasts_S512x2048_S512x2048 := rfl

/-- A projection tile at `(p, k)`: token row `p` against column `k`. -/
theorem projTile_apply (tok : Vec Ideal S1x512x2048 .f32) (col : Vec Ideal S1x2048x256 .f32) (p : Fin 512) (k : Fin 256) :
    projTile tok col (ix2 p k) = ∑ h : Fin 2048, tok (ix3 (0 : Fin 1) p h) * col (ix3 (0 : Fin 1) h k) := by
  unfold projTile
  refine (Cert.Lib.DotSum.matmul_zero_at dot_S512x2048_S2048x256_S512x256_1_0_0_1_n_n rfl rfl rfl rfl rfl rfl none _ _ p k).trans ?_
  refine Finset.sum_congr rfl fun h _ => ?_
  exact congr (congrArg HMul.hMul (shapeCast_1ab_ab_apply tok _ p h)) (shapeCast_1ab_ab_apply col _ h k)

/-- The weighted tile at an entry: the up value times `g · 1 / (1 + exp (−g))` of the gate value. -/
theorem actTile_apply (g u : FVec Ideal S512x256 .f32) (j : S512x256.Idx) :
    actTile g u j = u j * Spec.silu (g j) := by
  show u j * (g j * Ideal.div (Ideal.ofBits .f32 0x3F800000#32)
    (Ideal.ofBits .f32 0x3F800000#32 + Ideal.exp (Ideal.ofBits .f32 0x00000000#32 - g j))) = _
  rw [Ideal.ofBits_zero_f32, zero_sub]
  rfl

/-- THE TILE AT AN ENTRY: the running sum's entry plus the tile's 256 contributions. -/
theorem pay3_apply (tok : Vec Ideal S1x512x2048 .f32) (gate up : Vec Ideal S1x2048x256 .f32) (down : Vec Ideal S1x256x2048 .f32)
    (run : Vec Ideal S512x2048 .f32) (p : Fin 512) (q : Fin 2048) :
    k0_pay3 tok gate up down run (ix2 p q)
      = run (ix2 p q) + ∑ k : Fin 256,
          ((∑ h : Fin 2048, tok (ix3 (0 : Fin 1) p h) * up (ix3 (0 : Fin 1) h k))
            * Spec.silu (∑ h : Fin 2048, tok (ix3 (0 : Fin 1) p h) * gate (ix3 (0 : Fin 1) h k)))
          * down (ix3 (0 : Fin 1) k q) := by
  rw [pay3_eq, shapeCast_self]
  refine congrArg (run (ix2 p q) + ·) ?_
  refine (Cert.Lib.DotSum.matmul_zero_at dot_S512x256_S256x2048_S512x2048_1_0_0_1_n_n rfl rfl rfl rfl rfl rfl none _ _ p q).trans ?_
  refine Finset.sum_congr rfl fun k _ => ?_
  refine congr (congrArg HMul.hMul ?_) (shapeCast_1ab_ab_apply down _ k q)
  rw [actTile_apply, projTile_apply, projTile_apply]

/-- The zero block the first tile starts from. -/
theorem pay2_apply (j : S512x2048.Idx) : k0_pay2 (F := Ideal) j = 0 := by
  have e : k0_pay2 (F := Ideal)
      = shapeCast S512x2048 (broadcast S512x2048 (Scalar.ofBits (F := Ideal) .f32 0x00000000#32) : FVec Ideal S512x2048 .f32)
          shapeCasts_S512x2048_S512x2048 := rfl
  rw [e, shapeCast_self]
  exact Ideal.ofBits_zero_f32

/-- The output block is the final running sum under a leading unit axis. -/
theorem pay1_apply (run : Vec Ideal S512x2048 .f32) (u : Fin 1) (p : Fin 512) (q : Fin 2048) :
    k0_pay1 run (ix3 u p q) = run (ix2 p q) :=
  shapeCast_ab_1ab_apply run shapeCasts_S512x2048_S1x512x2048 u p q

end Cert.Proof.Tile

end
-- ==== Proof.AccSum.lean ====
/-
  The running sum after tile `n`, entry by entry: the sum of the first `n + 1` tiles' contributions.

  Tile `c` of expert `e` reads gate columns `c·256 + k`, up columns `(c + 16)·256 + k` and down rows `c·256 + k` (`k < 256`); by
  the tile lemma its contribution to entry `(p, q)` is the sum over `k` of the specification's term at those columns and that
  row. The first tile starts from the zero block, and adding `0` changes nothing; each later tile adds its contribution to
  the sum so far. Addition of extended reals is associative and commutative, so no entry need be finite.
-/
import proofs.«132630_j37151467110421_1_alg».proof.Proof.AccSpec
import proofs.«132630_j37151467110421_1_alg».proof.Proof.Tile

noncomputable section

open scoped BigOperators

namespace Cert.Proof.AccSum

open Idealize.ShloMosaic Idealize.ShloMosaic.ValueIdx Cert.KernelIdeal Cert.KernelIdeal.Gen Cert.KernelIdeal.Acc

/-- Tile `c`'s `k`-th gate column, -/
def gcol (c : ℕ) (k : Fin 256) : Fin 8192 := ⟨(c % 16) * 256 + k.val, by
  have h : k.val < 256 := k.isLt
  have h' : c % 16 < 16 := Nat.mod_lt _ (by decide)
  omega⟩

/-- its `k`-th up column, -/
def ucol (c : ℕ) (k : Fin 256) : Fin 8192 := ⟨(c % 16 + 16) * 256 + k.val, by
  have h : k.val < 256 := k.isLt
  have h' : c % 16 < 16 := Nat.mod_lt _ (by decide)
  omega⟩

/-- and its `k`-th down row. -/
def drow (c : ℕ) (k : Fin 256) : Fin 4096 := ⟨(c % 16) * 256 + k.val, by
  have h : k.val < 256 := k.isLt
  have h' : c % 16 < 16 := Nat.mod_lt _ (by decide)
  omega⟩

/-- Tile `c`'s contribution to entry `(p, q)` of expert `e`. -/
def tileSum (hs : Vec Ideal S16x512x2048 .f32) (w : Vec Ideal S16x2048x8192 .f32) (d : Vec Ideal S16x4096x2048 .f32)
    (e : Fin 16) (p : Fin 512) (q : Fin 2048) (c : ℕ) : EReal :=
  ∑ k : Fin 256, Spec.term hs w d e p q (gcol c k) (ucol c k) (drow c k)

/-- One step of the accumulation on the expert's blocks: the running sum's entry plus the tile's contribution. -/
theorem tile_apply (hs : Vec Ideal S16x512x2048 .f32) (w : Vec Ideal S16x2048x8192 .f32) (d : Vec Ideal S16x4096x2048 .f32)
    (e : Fin 16) (c : ℕ) (run : Vec Ideal S512x2048 .f32) (p : Fin 512) (q : Fin 2048) :
    k0_pay3 (tokBlk hs e) (gateBlk w e c) (upBlk w e c) (downBlk d e c) run (ix2 p q)
      = run (ix2 p q) + tileSum hs w d e p q c :=
  (Tile.pay3_apply (tokBlk hs e) (gateBlk w e c) (upBlk w e c) (downBlk d e c) run p q).trans rfl

/-- THE RUNNING SUM after tile `n`: the first `n + 1` contributions. -/
theorem acc_apply (hs : Vec Ideal S16x512x2048 .f32) (w : Vec Ideal S16x2048x8192 .f32) (d : Vec Ideal S16x4096x2048 .f32)
    (e : Fin 16) (p : Fin 512) (q : Fin 2048) :
    ∀ n : ℕ, acc hs w d e n (ix2 p q) = ∑ c ∈ Finset.range (n + 1), tileSum hs w d e p q c
  | 0 => by
    rw [acc, tile_apply, Tile.pay2_apply, zero_add, Finset.sum_range_one]
  | n + 1 => by
    rw [acc, tile_apply, acc_apply hs w d e p q n]
    exact (Finset.sum_range_succ _ (n + 1)).symm

end Cert.Proof.AccSum

end
-- ==== Proof.LibSumBlocks.lean ====
/-
  A sum over `Fin n`, where n = a · b, regrouped as a sum over a blocks of b consecutive indices:
      Σ_{k < n} g k = Σ_{c < a} Σ_{d < b} g (c · b + d).
  It holds in every commutative additive monoid, so in particular for sums of extended reals, where no term needs to be finite.
-/
import Mathlib.Algebra.BigOperators.Fin

namespace Cert.Lib

/-- The k-th index of block c. -/
def blockIdx {a b n : ℕ} (h : a * b = n) (c : Fin a) (d : Fin b) : Fin n :=
  ⟨c.val * b + d.val, by
    have hc := c.isLt
    have hd := d.isLt
    calc c.val * b + d.val < c.val * b + b := Nat.add_lt_add_left hd _
      _ = (c.val + 1) * b := (Nat.succ_mul _ _).symm
      _ ≤ a * b := Nat.mul_le_mul_right _ hc
      _ = n := h⟩

@[simp] theorem blockIdx_val {a b n : ℕ} (h : a * b = n) (c : Fin a) (d : Fin b) : (blockIdx h c d).val = c.val * b + d.val := rfl

/-- A sum over `Fin (a * b)` is the sum over the a blocks of the sums over each block's b indices. -/
theorem sum_fin_blocks {M : Type*} [AddCommMonoid M] {a b n : ℕ} (h : a * b = n) (g : Fin n → M) :
    ∑ k : Fin n, g k = ∑ c : Fin a, ∑ d : Fin b, g (blockIdx h c d) := by
  subst h
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

end Cert.Lib
-- ==== Proof.KernelSpec.lean ====
/-
  The kernel's accumulation computes the specification.

  After the sixteenth tile the running sum at `(p, q)` is the sum over the tiles `c < 16` of the sums over `k < 256` of the
  specification's term at gate column `c·256 + k`, up column `(c + 16)·256 + k = 4096 + (c·256 + k)` and down row `c·256 + k`.
  The 4096 intermediate coordinates are exactly the numbers `c·256 + k`, block by block, so regrouping the specification's
  one sum over them into sixteen blocks of 256 gives the same double sum. The regrouping holds in any commutative monoid:
  no entry need be finite.
-/
import proofs.«132630_j37151467110421_1_alg».proof.Proof.AccSum
import proofs.«132630_j37151467110421_1_alg».proof.Proof.LibSumBlocks

noncomputable section

open scoped BigOperators

namespace Cert.Proof.KernelSpec

open Idealize.ShloMosaic Idealize.ShloMosaic.ValueIdx Cert.KernelIdeal Cert.KernelIdeal.Gen Cert.KernelIdeal.Acc
open Cert.Proof.AccSum

/-- Sixteen blocks of 256 make the 4096 intermediate coordinates. -/
theorem blocks : 16 * 256 = 4096 := by norm_num

/-- Tile `c`'s `k`-th gate column is the gate column of intermediate coordinate `c·256 + k`, -/
theorem gcol_block (c : Fin 16) (k : Fin 256) : gcol c.val k = Spec.gateCol (Cert.Lib.blockIdx blocks c k) :=
  Fin.ext (by
    show (c.val % 16) * 256 + k.val = c.val * 256 + k.val
    have h : c.val < 16 := c.isLt
    omega)

/-- its `k`-th up column the up column of that coordinate, -/
theorem ucol_block (c : Fin 16) (k : Fin 256) : ucol c.val k = Spec.upCol (Cert.Lib.blockIdx blocks c k) :=
  Fin.ext (by
    show (c.val % 16 + 16) * 256 + k.val = 4096 + (c.val * 256 + k.val)
    have h : c.val < 16 := c.isLt
    omega)

/-- and its `k`-th down row that coordinate itself. -/
theorem drow_block (c : Fin 16) (k : Fin 256) : drow c.val k = Cert.Lib.blockIdx blocks c k :=
  Fin.ext (by
    show (c.val % 16) * 256 + k.val = c.val * 256 + k.val
    have h : c.val < 16 := c.isLt
    omega)

/-- The sixteen tiles' contributions are the specification's sum, block by block. -/
theorem tiles_eq_specAt (hs : Vec Ideal S16x512x2048 .f32) (w : Vec Ideal S16x2048x8192 .f32) (d : Vec Ideal S16x4096x2048 .f32)
    (e : Fin 16) (p : Fin 512) (q : Fin 2048) :
    ∑ c ∈ Finset.range 16, tileSum hs w d e p q c = Spec.specAt hs w d e p q := by
  rw [Finset.sum_range, Spec.specAt, Cert.Lib.sum_fin_blocks blocks]
  refine Finset.sum_congr rfl fun c _ => ?_
  unfold tileSum
  refine Finset.sum_congr rfl fun k _ => ?_
  rw [gcol_block, ucol_block, drow_block]

/-- THE KERNEL IS THE SPECIFICATION: the array assembled from the sixteen experts' output blocks is the specification of
    the three operand arrays, entry by entry. -/
theorem outArr_eq_spec (hs : Vec Ideal S16x512x2048 .f32) (w : Vec Ideal S16x2048x8192 .f32) (d : Vec Ideal S16x4096x2048 .f32)
    (i : S16x512x2048.Idx) : outArr (F := Ideal) hs w d i = Spec.spec hs w d i := by
  obtain ⟨e, p, q, rfl⟩ : ∃ (e : Fin 16) (p : Fin 512) (q : Fin 2048), i = ix3 e p q := ⟨i 0, i 1, i 2, eq_ix3 i⟩
  show k0_pay1 (acc hs w d e 15) (ix3 (0 : Fin 1) p q) = Spec.specAt hs w d e p q
  rw [Tile.pay1_apply, acc_apply hs w d e p q 15]
  exact tiles_eq_specAt hs w d e p q

/-- The same as an equation of arrays. -/
theorem outArr_eq (hs : Vec Ideal S16x512x2048 .f32) (w : Vec Ideal S16x2048x8192 .f32) (d : Vec Ideal S16x4096x2048 .f32) :
    outArr (F := Ideal) hs w d = Spec.spec hs w d :=
  funext (outArr_eq_spec hs w d)

end Cert.Proof.KernelSpec

end
-- ==== Proof.RefSpec.lean ====
/-
  The reference program computes the specification.

  The reference regroups the token rows by expert (a reshape), takes one batched product of the tokens with the whole
  gate/up weight matrix, splits the 8192 result columns into the gate half (columns `0 … 4095`) and the up half (columns
  `4096 … 8191`), forms `up · (gate · 1 / (1 + exp (−gate)))` entry by entry, takes the batched product with the down
  projection and flattens the expert axis again. Read entry by entry, the first product at `(e, p, c)` is token row `p` of
  expert `e` against weight column `c`; the two slices read it at columns `i` and `4096 + i`; the last product sums over the
  4096 intermediate coordinates. That is the specification's formula, term for term; no entry need be finite.
-/
import proofs.«132630_j37151467110421_1_alg».proof.Proof.Gen.ReferenceIdeal.Read
import proofs.«132630_j37151467110421_1_alg».proof.Proof.Spec

noncomputable section

open scoped BigOperators

namespace Cert.Proof.RefSpec

open Idealize.ShloMosaic Idealize.ShloMosaic.ValueIdx Cert.ReferenceIdeal Cert.ReferenceIdeal.Gen Cert.ReferenceIdeal.Read

/-! ## The operand indices of the two products and the two slices, by coordinates -/

theorem lidx_v1 (e : Fin 16) (p : Fin 512) (c : Fin 8192) (h : Fin 2048) : lidx_main_v1 (ix3 e p c) h = ix3 e p h :=
  funext fun a => by match a with | ⟨0, _⟩ => rfl | ⟨1, _⟩ => rfl | ⟨2, _⟩ => rfl

theorem ridx_v1 (e : Fin 16) (p : Fin 512) (c : Fin 8192) (h : Fin 2048) : ridx_main_v1 (ix3 e p c) h = ix3 e h c :=
  funext fun a => by match a with | ⟨0, _⟩ => rfl | ⟨1, _⟩ => rfl | ⟨2, _⟩ => rfl

theorem idx_v2 (e : Fin 16) (p : Fin 512) (i : Fin 4096) : idx_main_v2 (ix3 e p i) = ix3 e p (Spec.gateCol i) :=
  funext fun a => by match a with | ⟨0, _⟩ => rfl | ⟨1, _⟩ => rfl | ⟨2, _⟩ => rfl

theorem idx_v3 (e : Fin 16) (p : Fin 512) (i : Fin 4096) : idx_main_v3 (ix3 e p i) = ix3 e p (Spec.upCol i) :=
  funext fun a => by match a with | ⟨0, _⟩ => rfl | ⟨1, _⟩ => rfl | ⟨2, _⟩ => rfl

theorem lidx_v6 (e : Fin 16) (p : Fin 512) (q : Fin 2048) (i : Fin 4096) : lidx_main_v6 (ix3 e p q) i = ix3 e p i :=
  funext fun a => by match a with | ⟨0, _⟩ => rfl | ⟨1, _⟩ => rfl | ⟨2, _⟩ => rfl

theorem ridx_v6 (e : Fin 16) (p : Fin 512) (q : Fin 2048) (i : Fin 4096) : ridx_main_v6 (ix3 e p q) i = ix3 e i q :=
  funext fun a => by match a with | ⟨0, _⟩ => rfl | ⟨1, _⟩ => rfl | ⟨2, _⟩ => rfl

/-! ## The stages, entry by entry -/

variable (x0 : (⟨S8192x2048, .f32⟩ : BufTy).Contents (Elt Ideal)) (x1 : (⟨S16x2048x8192, .f32⟩ : BufTy).Contents (Elt Ideal))
  (x2 : (⟨S16x4096x2048, .f32⟩ : BufTy).Contents (Elt Ideal))

/-- The first product at `(e, p, c)`: token row `p` of expert `e` against weight column `c`. -/
theorem v1_at (e : Fin 16) (p : Fin 512) (c : Fin 8192) :
    val_main_v1 (F := Ideal) x0 x1 (ix3 e p c) = Spec.proj (val_main_v0 (F := Ideal) x0) x1 e p c := by
  rw [val_main_v1_apply]
  unfold Spec.proj
  refine Finset.sum_congr rfl fun h _ => ?_
  rw [lidx_v1, ridx_v1]

/-- The gate half reads column `i`, -/
theorem v2_at (e : Fin 16) (p : Fin 512) (i : Fin 4096) :
    val_main_v2 (F := Ideal) x0 x1 (ix3 e p i) = Spec.proj (val_main_v0 (F := Ideal) x0) x1 e p (Spec.gateCol i) := by
  rw [val_main_v2_apply, idx_v2, v1_at]

/-- the up half column `4096 + i`. -/
theorem v3_at (e : Fin 16) (p : Fin 512) (i : Fin 4096) :
    val_main_v3 (F := Ideal) x0 x1 (ix3 e p i) = Spec.proj (val_main_v0 (F := Ideal) x0) x1 e p (Spec.upCol i) := by
  rw [val_main_v3_apply, idx_v3, v1_at]

/-- The gated gate value: `g · 1 / (1 + exp (−g))` of the gate half's entry. -/
theorem v4_at (j : S16x512x4096.Idx) :
    val_main_v4 (F := Ideal) x0 x1 j = Spec.silu (val_main_v2 (F := Ideal) x0 x1 j) := by
  rw [val_main_v4_apply, val_main_call0_v5_apply, val_main_call0_v4_apply, val_main_call0_cst_0_apply, val_main_call0_v3_apply,
    val_main_call0_v2_apply, val_main_call0_cst_apply, val_main_call0_v1_apply, val_main_call0_v0_apply]
  rfl

/-- The weighted up value at `(e, p, i)`. -/
theorem v5_at (e : Fin 16) (p : Fin 512) (i : Fin 4096) :
    val_main_v5 (F := Ideal) x0 x1 (ix3 e p i)
      = Spec.proj (val_main_v0 (F := Ideal) x0) x1 e p (Spec.upCol i)
          * Spec.silu (Spec.proj (val_main_v0 (F := Ideal) x0) x1 e p (Spec.gateCol i)) := by
  rw [val_main_v5_apply, v3_at, v4_at, v2_at]
  rfl

/-- The second product at `(e, p, q)`: the specification's sum. -/
theorem v6_at (e : Fin 16) (p : Fin 512) (q : Fin 2048) :
    val_main_v6 (F := Ideal) x0 x1 x2 (ix3 e p q) = Spec.specAt (val_main_v0 (F := Ideal) x0) x1 x2 e p q := by
  rw [val_main_v6_apply]
  unfold Spec.specAt Spec.term
  refine Finset.sum_congr rfl fun i _ => ?_
  rw [lidx_v6, ridx_v6, v5_at]

/-- Before the final flattening the reference holds the specification of the regrouped tokens. -/
theorem v6_eq_spec : val_main_v6 (F := Ideal) x0 x1 x2 = Spec.spec (val_main_v0 (F := Ideal) x0) x1 x2 :=
  funext fun j => by
    obtain ⟨e, p, q, rfl⟩ : ∃ (e : Fin 16) (p : Fin 512) (q : Fin 2048), j = ix3 e p q := ⟨j 0, j 1, j 2, eq_ix3 j⟩
    exact v6_at x0 x1 x2 e p q

/-- THE REFERENCE IS THE SPECIFICATION: its result is the specification of the token rows regrouped by expert, flattened back
    to one row per token. -/
theorem reference_eq_spec :
    val_main_v7 (F := Ideal) x0 x1 x2
      = shapeCast S8192x2048 (Spec.spec (shapeCast S16x512x2048 x0 shapeCasts_S8192x2048_S16x512x2048) x1 x2)
          shapeCasts_S16x512x2048_S8192x2048 := by
  unfold val_main_v7
  rw [v6_eq_spec]
  rfl

end Cert.Proof.RefSpec

end
-- ==== Proof.RefSide.lean ====
/-
  The reference program's frame: the reference is a straight line of host operations, so every weakly fair
  execution ends with each argument array unchanged — its generated run with the result forgotten.
-/
import proofs.«132630_j37151467110421_1_alg».proof.Defs
import proofs.«132630_j37151467110421_1_alg».proof.Proof.Gen.ReferenceIdeal.Run
import proofs.«132630_j37151467110421_1_alg».proof.Proof.Gen.ReferenceIdeal.Read
import proofs.«132630_j37151467110421_1_alg».proof.Proof.Gen.Pre_finite_inputs

noncomputable section

namespace Cert.Proof.RefSide

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.lean ====
/-
  The grouped expert MLP (gate/up product, SwiGLU, down product) tiled over the expert dimension, against one einsum
  per product.

  For expert `e` the kernel walks sixteen tiles of 256 intermediate coordinates. At each tile it multiplies the
  expert's tokens by the tile's gate and up columns, forms `up · (gate · 1/(1 + exp(0 − gate)))`, multiplies by the
  tile's rows of the down projection and adds the product to a running sum that starts at zero; after the last tile
  the running sum is the expert's rows of the result. The reference multiplies once by all 8192 columns, splits,
  forms `up · (gate · 1/(1 + exp(−gate)))` and multiplies once by the whole down projection. Over the extended reals a
  change of float format is the identity, a product into a zero accumulator is the plain sum, `0 − g` is `−g`, and a
  sum over 4096 coordinates is the sum of its sixteen blocks of 256 in any order — addition there is a commutative
  monoid, so no entry need be finite and the precondition is never opened.

  The three frames: both kernel programs by one run of @main (the re-laying host operation, the region with its 256
  grid points, the re-laying host operation), stated once for any float instance; the reference by its straight line
  of host operations. Nothing was rewritten by the idealization, so that claim is trivial.
-/
import proofs.«132630_j37151467110421_1_alg».proof.Defs
import proofs.«132630_j37151467110421_1_alg».proof.Proof.Gen.Kernel
import proofs.«132630_j37151467110421_1_alg».proof.Proof.Gen.Kernel.Skeleton
import proofs.«132630_j37151467110421_1_alg».proof.Proof.Gen.Kernel.Launch
import proofs.«132630_j37151467110421_1_alg».proof.Proof.Gen.Kernel.Points
import proofs.«132630_j37151467110421_1_alg».proof.Proof.Gen.KernelIdeal
import proofs.«132630_j37151467110421_1_alg».proof.Proof.Gen.KernelIdeal.Skeleton
import proofs.«132630_j37151467110421_1_alg».proof.Proof.Gen.KernelIdeal.Launch
import proofs.«132630_j37151467110421_1_alg».proof.Proof.Gen.KernelIdeal.Points
import proofs.«132630_j37151467110421_1_alg».proof.Proof.Gen.ReferenceIdeal
import proofs.«132630_j37151467110421_1_alg».proof.Proof.Gen.Pre_finite_inputs
import proofs.«132630_j37151467110421_1_alg».proof.Proof.K.Launch
import proofs.«132630_j37151467110421_1_alg».proof.Proof.KI.Launch
import proofs.«132630_j37151467110421_1_alg».proof.Proof.KI.ValueOf
import proofs.«132630_j37151467110421_1_alg».proof.Proof.KernelSpec
import proofs.«132630_j37151467110421_1_alg».proof.Proof.RefSpec
import proofs.«132630_j37151467110421_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ =>
  (θ_run Cert.Kernel.defs _ _).mono (fun _ h c => (h c).2) (Cert.Kernel.Hand.run_main (F := Bits) m ρ)

/-- So does the kernel read over the extended reals. -/
theorem frame_ki : Cert.frame_KernelIdeal := fun m ρ _ =>
  (θ_run Cert.KernelIdeal.defs _ _).mono (fun _ h c => (h c).2) (Cert.KernelIdeal.Hand.run_main (F := Ideal) m ρ)

/-- The idealization rewrote no operation. -/
theorem preserves : Cert.preserves_Kernel_KernelIdeal := trivial

/-- Both programs end with the specification's array, re-laid as [8192, 2048], of arguments that agree. -/
theorem algebraic : Cert.algebraic_KernelIdeal_ReferenceIdeal := by
  intro m ρ m' ρ' _ hagree
  refine ⟨fun c => shapeCast Cert.KernelIdeal.S8192x2048
      (Cert.Proof.Spec.spec
        (shapeCast Cert.KernelIdeal.S16x512x2048 (m ((c.tc : Thread Cert.KernelIdeal.nD Cert.KernelIdeal.τ).loc Cert.KernelIdeal.main_arg0)) Cert.KernelIdeal.Facts₀.shapeCasts_S8192x2048_S16x512x2048)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      Cert.KernelIdeal.Facts₀.shapeCasts_S16x512x2048_S8192x2048, ?_, ?_⟩
  · refine (θ_run Cert.KernelIdeal.defs _ _).mono (fun _ h c => ⟨(h c).1.trans ?_, (h c).2⟩)
      (Cert.KernelIdeal.Hand.run_main (F := Ideal) m ρ)
    have hval : Cert.KernelIdeal.Hand.outAt m c
        = Cert.KernelIdeal.Acc.outArr (Cert.KernelIdeal.Hand.V m c Cert.KernelIdeal.main_v0)
            (Cert.KernelIdeal.Hand.V m c Cert.KernelIdeal.main_arg1) (Cert.KernelIdeal.Hand.V m c Cert.KernelIdeal.main_arg2) :=
      Cert.KernelIdeal.Hand.outAt_eq m c
    rw [hval, Cert.KernelIdeal.Hand.V_v0, Cert.KernelIdeal.Hand.V_arg1,
      Cert.KernelIdeal.Hand.V_arg2, Cert.Proof.KernelSpec.outArr_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.Proof.RefSpec.reference_eq_spec, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
